-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v53_1)) (v1 : (c : Dev Cert.KernelIdeal.nD) → Buf (Elt Ideal) ((c.tc : Thread Cert.KernelIdeal.nD Cert.KernelIdeal.τ).loc Cert.KernelIdeal.main_v53_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_1) = v0 c
          ∧ r.2.mem ((c.tc : Thread Cert.KernelIdeal.nD Cert.KernelIdeal.τ).loc Cert.KernelIdeal.main_v53_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg9 : FVec F S128x2 .f32) (main_arg10 : FVec F S2 .f32) (main_v33 : IVec S_ 1) : IVec S_ 1 :=
  let main_v34 : FVec F S128x2 .f32 := Host.absf main_arg9
  let main_cst_12 : FVec F S_ .f32 := constant S_ .f32 0x7F800000#32
  let main_v35 : FVec F S128x2 .f32 := broadcastInDim S128x2 ![] bcast_S_S128x2 main_cst_12
  let main_v36 : IVec S128x2 1 := cmpf .olt main_v34 main_v35
  let main_c_13 : IVec S_ 1 := constantI S_ 1 1#1
  let main_v37 : IVec S_ 1 := (fun x v => Host.reduce IntOp.andi x v reducesTo_S128x2_S_d0_1 h_S_) main_v36 main_c_13
  let main_v38 : IVec S_ 1 := andi main_v33 main_v37
  let main_v39 : FVec F S2 .f32 := Host.absf main_arg10
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x2 .f32) (main_arg10 : FVec F S2 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x2 .f32) (main_arg10 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S1x128 : Shape := ⟨2, ![1, 128]⟩
abbrev S50000x2 : Shape := ⟨2, ![50000, 2]⟩
abbrev S2000x2 : Shape := ⟨2, ![2000, 2]⟩
abbrev S1x2 : Shape := ⟨2, ![1, 2]⟩

abbrev nBuf : Space → Nat
  | .hbm => 82
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x2, .f32⟩
  | .hbm, ⟨10, _⟩ => ⟨S2, .f32⟩
  | .hbm, ⟨11, _⟩ => ⟨S_, .f32⟩
  | .hbm, ⟨12, _⟩ => ⟨S800000, .f32⟩
  | .hbm, ⟨13, _⟩ => ⟨S_, .f32⟩
  | .hbm, ⟨14, _⟩ => ⟨S50000, .f32⟩
  | .hbm, ⟨15, _⟩ => ⟨S800000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S_, .f32⟩
  | .hbm, ⟨26, _⟩ => ⟨S50000x1, .f32⟩
  | .hbm, ⟨27, _⟩ => ⟨S50000x1, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x128, .f32⟩
  | .hbm, ⟨67, _⟩ => ⟨S_, .i32⟩
  | .hbm, ⟨68, _⟩ => ⟨S800000, .i32⟩
  | .hbm, ⟨69, _⟩ => ⟨S800000, .i1⟩
  | .hbm, ⟨70, _⟩ => ⟨S_, .i32⟩
  | .hbm, ⟨71, _⟩ => ⟨S800000, .i32⟩
  | .hbm, ⟨72, _⟩ => ⟨S800000, .i32⟩
  | .hbm, ⟨73, _⟩ => ⟨S800000, .i32⟩
  | .hbm, ⟨74, _⟩ => ⟨S800000x1, .i32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x2, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x128, .f32⟩
  | .local _ .vmem, ⟨7, _⟩ => ⟨S128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S128, .f32⟩
  | .local _ .vmem, ⟨26, _⟩ => ⟨S128x2, .f32⟩
  | .local _ .vmem, ⟨27, _⟩ => ⟨S2, .f32⟩
  | .local _ .vmem, ⟨28, _⟩ => ⟨S2000x128, .f32⟩
  | .local _ .vmem, ⟨29, _⟩ => ⟨S2000x128, .f32⟩
  | .local _ .vmem, ⟨30, _⟩ => ⟨S2000x2, .f32⟩
  | .local _ .vmem, ⟨31, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c : Ref sig .tc := ⟨.hbm, 39, rfl⟩
abbrev main_v21 : Ref sig .tc := ⟨.hbm, 40, rfl⟩
abbrev main_v22 : Ref sig .tc := ⟨.hbm, 41, rfl⟩
abbrev main_c_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_c_8 : Ref sig .tc := ⟨.hbm, 53, rfl⟩
abbrev main_v32 : Ref sig .tc := ⟨.hbm, 54, rfl⟩
abbrev main_v33 : Ref sig .tc := ⟨.hbm, 55, rfl⟩
abbrev main_c_9 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_10 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_11 : Ref sig .tc := ⟨.hbm, 67, rfl⟩
abbrev main_v43 : Ref sig .tc := ⟨.hbm, 68, rfl⟩
abbrev main_v44 : Ref sig .tc := ⟨.hbm, 69, rfl⟩
abbrev main_c_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53_0 : Ref sig .tc := ⟨.hbm, 80, rfl⟩
abbrev main_v53_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S2 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2000x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x2_S2000x2_1_0_0_1_n_n_wf : DotDims.WF S2000x128 S128x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128.size a ≤ S128.size a
  hwx2_3 : ∀ i : grid2.Coords, EltTy.bits .f32 = 32 ∨ (Rect.block (s := S128) S128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x2.size a ≤ S128x2.size a
  hwx2_4 : ∀ i : grid2.Coords, EltTy.bits .f32 = 32 ∨ (Rect.block (s := S128x2) S128x2.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S2.size a ≤ S2.size a
  hwx2_5 : ∀ i : grid2.Coords, EltTy.bits .f32 = 32 ∨ (Rect.block (s := S2) S2.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x2.size a ≤ S50000x2.size a
  hwx2_7 : ∀ i : grid2.Coords, EltTy.bits .f32 = 32 ∨ (Rect.block (s := S50000x2) S2000x2.size (cc2_transform_7 i) (hinb2_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf

abbrev win0_0 : Pipeline.Window sig grid0 :=
  Pipeline.Window.ofSpec (Memref.whole main_v30) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v41) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v52) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S2.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v53_0) S2000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v53_1) S2000x2.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S50000x2 : Shape := ⟨2, ![50000, 2]⟩
abbrev S1x2 : Shape := ⟨2, ![1, 2]⟩

abbrev nBuf : Space → Nat
  | .hbm => 132
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x2, .f32⟩
  | 10 => ⟨S2, .f32⟩
  | 11 => ⟨S_, .f32⟩
  | 12 => ⟨S800000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S_, .f32⟩
  | 26 => ⟨S50000x1, .f32⟩
  | 27 => ⟨S50000x1, .f32⟩
  | 28 => ⟨S_, .f32⟩
  | 29 => ⟨S50000, .f32⟩
  | 30 => ⟨S50000, .f32⟩
  | 31 => ⟨S50000x1, .f32⟩
  | 32 => ⟨S_, .f32⟩
  | 33 => ⟨S50000x1, .f32⟩
  | 34 => ⟨S50000x1, .f32⟩
  | 35 => ⟨S50000x128, .f32⟩
  | 36 => ⟨S50000x128, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000x128, .f32⟩
  | 46 => ⟨S_, .f32⟩
  | 47 => ⟨S50000x128, .f32⟩
  | 48 => ⟨S800000x1, .i32⟩
  | 49 => ⟨S50000x128, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .i1⟩
  | 59 => ⟨S_, .f32⟩
  | 60 => ⟨S50000x128, .f32⟩
  | 61 => ⟨S50000x128, .i1⟩
  | 62 => ⟨S_, .f32⟩
  | 63 => ⟨S_, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S50000x128, .f32⟩
  | 71 => ⟨S50000x128, .f32⟩
  | 72 => ⟨S50000x128, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x128, .f32⟩
  | 82 => ⟨S_, .f32⟩
  | 83 => ⟨S50000x128, .f32⟩
  | 84 => ⟨S800000x1, .i32⟩
  | 85 => ⟨S50000x128, .f32⟩
  | 86 => ⟨S50000x128, .f32⟩
  | 87 => ⟨S50000x128, .f32⟩
  | 88 => ⟨S50000x128, .f32⟩
  | 89 => ⟨S1x128, .f32⟩
  | 90 => ⟨S50000x128, .f32⟩
  | 91 => ⟨S50000x128, .f32⟩
  | 92 => ⟨S_, .f32⟩
  | 93 => ⟨S50000x128, .f32⟩
  | 94 => ⟨S50000x128, .i1⟩
  | 95 => ⟨S_, .f32⟩
  | 96 => ⟨S50000x128, .f32⟩
  | 97 => ⟨S50000x128, .i1⟩
  | 98 => ⟨S_, .f32⟩
  | 99 => ⟨S_, .f32⟩
  | 100 => ⟨S50000x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S50000x128, .f32⟩
  | 108 => ⟨S50000x128, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x128, .f32⟩
  | 118 => ⟨S_, .f32⟩
  | 119 => ⟨S50000x128, .f32⟩
  | 120 => ⟨S800000x1, .i32⟩
  | 121 => ⟨S50000x128, .f32⟩
  | 122 => ⟨S50000x128, .f32⟩
  | 123 => ⟨S50000x128, .f32⟩
  | 124 => ⟨S50000x128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x2, .f32⟩
  | 1 => ⟨S1x2, .f32⟩
  | 2 => ⟨S50000x2, .f32⟩
  | 3 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_cst_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_5 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_cst_1 : Ref sig .tc := ⟨.hbm, 62, rfl⟩
abbrev main_call0_call0_v0 : Ref sig .tc := ⟨.hbm, 63, rfl⟩
abbrev main_call0_call0_v1 : Ref sig .tc := ⟨.hbm, 64, rfl⟩
abbrev main_call0_v4 : Ref sig .tc := ⟨.hbm, 65, rfl⟩
abbrev main_call0_v5 : Ref sig .tc := ⟨.hbm, 66, rfl⟩
abbrev main_call0_cst_2 : Ref sig .tc := ⟨.hbm, 67, rfl⟩
abbrev main_call0_v6 : Ref sig .tc := ⟨.hbm, 68, rfl⟩
abbrev main_call0_v7 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_c_8 : Ref sig .tc := ⟨.hbm, 73, rfl⟩
abbrev main_v38 : Ref sig .tc := ⟨.hbm, 74, rfl⟩
abbrev main_v39 : Ref sig .tc := ⟨.hbm, 75, rfl⟩
abbrev main_c_9 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_10 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_cst_1 : Ref sig .tc := ⟨.hbm, 98, rfl⟩
abbrev main_call1_call0_v0 : Ref sig .tc := ⟨.hbm, 99, rfl⟩
abbrev main_call1_call0_v1 : Ref sig .tc := ⟨.hbm, 100, rfl⟩
abbrev main_call1_v4 : Ref sig .tc := ⟨.hbm, 101, rfl⟩
abbrev main_call1_v5 : Ref sig .tc := ⟨.hbm, 102, rfl⟩
abbrev main_call1_cst_2 : Ref sig .tc := ⟨.hbm, 103, rfl⟩
abbrev main_call1_v6 : Ref sig .tc := ⟨.hbm, 104, rfl⟩
abbrev main_call1_v7 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_c_11 : Ref sig .tc := ⟨.hbm, 109, rfl⟩
abbrev main_v57 : Ref sig .tc := ⟨.hbm, 110, rfl⟩
abbrev main_v58 : Ref sig .tc := ⟨.hbm, 111, rfl⟩
abbrev main_c_12 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_cst_13 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.KRun.lean ====
/-
  The idealized kernel program's run with its two results named.

  The program is three launches among stretches of host operations. Its memory at each boundary is a fold from the
  launch memory: a host stretch applies its operations, a launch replaces its arrays by what its write-backs leave.
  Every weakly fair execution terminates, nothing faulting, with every unscoped buffer at the last boundary's
  contents; read at the two result buffers that gives the results, and read at the arguments it gives them back
  unchanged.
-/
import proofs.«120331_j635655160271_1_alg».proof.Proof.Gen.KernelIdeal.Frame

set_option maxRecDepth 16384

noncomputable section

namespace Cert.KernelIdeal.NamedRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the head's result and the embedding at the last boundary's contents, the arguments as launched. -/
theorem run : θ_run defs (onTc (τ := τ) (main (F := F))) ⟨m, fun _ => 0, ρ⟩ (fun r => ∀ c : Dev nD,
      r.2.mem ((c.tc : Thread nD τ).loc main_v53_1) = W6 m ρ c (Proc.devRef .tc main_v53_1)
      ∧ r.2.mem ((c.tc : Thread nD τ).loc main_v53_0) = W6 m ρ c (Proc.devRef .tc main_v53_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v53_1 (by decide)),
       h c _ (mem_uc main_v53_0 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.NamedRun

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«120331_j635655160271_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Spec.lean ====
/-
  The graph-convolution layers as functions of whole arrays, entry by entry, on the extended reals.

  One layer takes the aggregated features `m` (one row per node), scales row `r` by the in-degree factor `nd (r, ·)`,
  multiplies by the weights, adds the bias: `dense`. The hidden layers then apply the exponential linear unit and
  scale by the out-degree factor `ns` for the next aggregation: `act`. The unit comes in two spellings,
  `y ↦ if y > 0 then y else exp y − 1` and `y ↦ if y > 0 then y else 1 · (exp (if y > 0 then 0 else y) − 1)`;
  `elu_forms` says they are one function: where the condition holds both return `y`, and where it fails the inner
  choice returns `y`, the word of 1.0 is the number 1, and `1 · a = a`. Nothing needs the entries to be finite.
-/
import proofs.«120331_j635655160271_1_alg».proof.Proof.LibRowsCols

noncomputable section

namespace Cert.Gcn

open Idealize.ShloMosaic Idealize.ShloMosaic.ValueIdx Cert.Dense

/-- The word of `1.0` is the number one. -/
theorem ofBits_one : Ideal.ofBits .f32 0x3F800000#32 = 1 := by
  simp [Ideal.ofBits, Ideal.ieee, -EReal.coe_mul]; norm_num

/-- The exponential linear unit on one extended real: `y` where `y > 0` (the comparison against the word of
    `0.0`), `exp y − 1.0` elsewhere. -/
def elu (y : EReal) : EReal :=
  Scalar.select (Ideal.cmp .ogt y (Ideal.ofBits .f32 0x00000000#32)) y (Ideal.exp y - Ideal.ofBits .f32 0x3F800000#32)

/-- The unit's other spelling is the same function. -/
theorem elu_forms (y : EReal) :
    Scalar.select (Ideal.cmp .ogt y (Ideal.ofBits .f32 0x00000000#32)) y
        (Ideal.ofBits .f32 0x3F800000#32
          * (Ideal.exp (Scalar.select (Ideal.cmp .ogt y (Ideal.ofBits .f32 0x00000000#32)) (Ideal.ofBits .f32 0x00000000#32) y) - 1))
      = elu y := by
  unfold elu
  rcases BitVec.eq_zero_or_eq_one (Ideal.cmp .ogt y (Ideal.ofBits .f32 0x00000000#32)) with h | h
  · rw [h, ofBits_one, one_mul]; rfl
  · rw [h]; rfl

variable {M K N : Nat}

/-- One layer before its activation: rows scaled, times the weights, plus the bias. -/
def dense (m nd : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => rowsTimes (fun x => m x * nd x) w i + b (ix1 (i 1 : Fin N))

/-- A hidden layer: the unit of `dense`, scaled for the next aggregation. -/
def act (m nd : (⟨2, ![M, K]⟩ : Shape).Idx → EReal) (ns : (⟨2, ![M, N]⟩ : Shape).Idx → EReal)
    (w : (⟨2, ![K, N]⟩ : Shape).Idx → EReal) (b : (⟨1, ![N]⟩ : Shape).Idx → EReal) :
    (⟨2, ![M, N]⟩ : Shape).Idx → EReal :=
  fun i => elu (dense m nd w b i) * ns i

/-- The output head on the embedding: times the head's weights, plus its bias. -/
def head {O : Nat} (e : (⟨2, ![M, N]⟩ : Shape).Idx → EReal) (w : (⟨2, ![N, O]⟩ : Shape).Idx → EReal)
    (b : (⟨1, ![O]⟩ : Shape).Idx → EReal) : (⟨2, ![M, O]⟩ : Shape).Idx → EReal :=
  fun i => rowsTimes e w i + b (ix1 (i 1 : Fin O))

/-- `dense` depends on its inputs' row only: where a block's row `j 0` is the array's row `i 0`, and the columns
    agree, the block's layer at `j` is the array's at `i`. -/
theorem dense_of_rows {R : Nat} (m nd : (⟨2, ![M, K]⟩ : Shape).Idx → EReal) (m' nd' : (⟨2, ![R, K]⟩ : Shape).Idx → EReal)
    (w : (⟨2, ![K, N]⟩ : Shape).Idx → EReal) (b : (⟨1, ![N]⟩ : Shape).Idx → EReal)
    (j : (⟨2, ![R, N]⟩ : Shape).Idx) (i : (⟨2, ![M, N]⟩ : Shape).Idx)
    (hm : ∀ k : Fin K, m' (ix2 (j 0 : Fin R) k) = m (ix2 (i 0 : Fin M) k))
    (hn : ∀ k : Fin K, nd' (ix2 (j 0 : Fin R) k) = nd (ix2 (i 0 : Fin M) k))
    (hc : (j 1 : Fin N) = (i 1 : Fin N)) :
    dense m' nd' w b j = dense m nd w b i := by
  unfold dense
  rw [rowsTimes_of_rows (fun x => m x * nd x) w (fun x => m' x * nd' x) w j i
    (fun k => by show m' _ * nd' _ = m _ * nd _; rw [hm k, hn k]) (fun k => by rw [hc]), hc]

end Cert.Gcn

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.KPay.lean ====
/-
  What the three kernel bodies store, read at one entry of the block.

  A hidden layer's body computes, on a block of 2000 rows: the rows of the aggregated features times the in-degree
  factor, rounded to a narrower format (no change on the extended reals), times the weights into a zero accumulator,
  plus the bias laid along the rows, then the exponential linear unit, times the out-degree factor. At (p, j) that is
  `act` of the blocks. The last body stores the embedding `dense` of its blocks, and the head of that embedding.
-/
import proofs.«120331_j635655160271_1_alg».proof.Proof.Gen.KernelIdeal.Skeleton
import proofs.«120331_j635655160271_1_alg».proof.Proof.Spec
import proofs.«120331_j635655160271_1_alg».proof.Proof.LibColumnLayout
import Idealize.ShloMosaic.Lib.Pipeline.Value

set_option pp.maxSteps 5000
set_option pp.deepTerms false

noncomputable section

namespace Cert.Gcn

open Cert.KernelIdeal Cert.KernelIdeal.Gen Idealize.ShloMosaic Idealize.ShloMosaic.ValueIdx Cert.Dense

/-- The hidden layers' contraction record is rows times columns. -/
theorem rowsCols_hidden : RowsCols dot_S2000x128_S128x128_S2000x128_1_0_0_1_n_n :=
  ⟨rfl, rfl, fun _ _ => rfl, fun _ _ => rfl, fun _ _ => rfl, fun _ _ => rfl⟩

/-- So is the head's. -/
theorem rowsCols_head : RowsCols dot_S2000x128_S128x2_S2000x2_1_0_0_1_n_n :=
  ⟨rfl, rfl, fun _ _ => rfl, fun _ _ => rfl, fun _ _ => rfl, fun _ _ => rfl⟩

/-- The embedding body's store at (p, j). -/
theorem pay_embed (x0 x1 : FVec Ideal S2000x128 .f32) (x3 : FVec Ideal S128x128 .f32) (x4 : FVec Ideal S128 .f32)
    (p : Fin 2000) (j : Fin 128) :
    k2_pay1 (F := Ideal) x0 x1 x3 x4 (ix2 p j) = dense x0 x1 x3 x4 (ix2 p j) := by
  unfold k2_pay1
  simp only [shapeCast_self]
  refine (addf_apply _ _ _).trans ?_
  unfold dense
  refine congrArg₂ (· + ·) ?_ ?_
  · exact matmul_zero_apply rowsCols_hidden none _ _ (ix2 p j)
  · exact ColumnLayout.row_broadcast_apply x4 _ _ p j

/-- The first hidden layer's store at (p, j). -/
theorem pay_hidden (x0 x1 x2 : FVec Ideal S2000x128 .f32) (x3 : FVec Ideal S128x128 .f32) (x4 : FVec Ideal S128 .f32)
    (p : Fin 2000) (j : Fin 128) :
    k0_pay1 (F := Ideal) x0 x1 x2 x3 x4 (ix2 p j) = act x0 x1 x2 x3 x4 (ix2 p j) := by
  unfold k0_pay1
  simp only [shapeCast_self]
  refine (mulf_apply _ _ _).trans ?_
  unfold act
  refine congrArg (· * x2 (ix2 p j)) ?_
  refine Eq.trans (b := elu (addf (matmul dot_S2000x128_S128x128_S2000x128_1_0_0_1_n_n none (truncf .bf16 (mulf x0 x1) bitsLt_bf16_f32)
      (truncf .bf16 x3 bitsLt_bf16_f32) (constant S2000x128 .f32 0x00000000#32))
      (broadcastTo S2000x128 (shapeCast S1x128 x4 shapeCasts_S128_S1x128) broadcasts_S1x128_S2000x128) (ix2 p j))) rfl ?_
  refine congrArg elu ?_
  refine (addf_apply _ _ _).trans ?_
  unfold dense
  refine congrArg₂ (· + ·) ?_ ?_
  · exact matmul_zero_apply rowsCols_hidden none _ _ (ix2 p j)
  · exact ColumnLayout.row_broadcast_apply x4 _ _ p j

/-- The second hidden layer's body is the same text. -/
theorem pay_hidden' (x0 x1 x2 : FVec Ideal S2000x128 .f32) (x3 : FVec Ideal S128x128 .f32) (x4 : FVec Ideal S128 .f32)
    (p : Fin 2000) (j : Fin 128) :
    k1_pay1 (F := Ideal) x0 x1 x2 x3 x4 (ix2 p j) = act x0 x1 x2 x3 x4 (ix2 p j) :=
  pay_hidden x0 x1 x2 x3 x4 p j

/-- The head's store at (p, o): the head of the embedding the same body stores. -/
theorem pay_head (x0 x1 : FVec Ideal S2000x128 .f32) (x3 : FVec Ideal S128x128 .f32) (x4 : FVec Ideal S128 .f32)
    (x5 : FVec Ideal S128x2 .f32) (x6 : FVec Ideal S2 .f32) (p : Fin 2000) (o : Fin 2) :
    k2_pay2 (F := Ideal) x0 x1 x3 x4 x5 x6 (ix2 p o) = head (dense x0 x1 x3 x4) x5 x6 (ix2 p o) := by
  unfold k2_pay2
  refine (addf_apply _ _ _).trans ?_
  unfold head
  refine congrArg₂ (· + ·) ?_ ?_
  · refine (matmul_zero_apply rowsCols_head none _ _ (ix2 p o)).trans ?_
    exact Finset.sum_congr rfl fun k _ => congrArg (· * x5 (ix2 k o)) (pay_embed x0 x1 x3 x4 p k)
  · exact ColumnLayout.row_broadcast_apply x6 _ _ p o

end Cert.Gcn

end
-- ==== Proof.KRegion0.lean ====
/-
  What the first hidden layer's launch leaves in its output array, as one function of the arrays it was given.

  The launch walks 25 blocks of 2000 rows. At block `t` the body reads rows `2000·t … 2000·t + 1999` of the
  aggregated features and of the two degree-factor arrays, and the whole weight matrix and bias, and writes rows
  `2000·t …` of the result. A layer's row depends on the same row of its inputs only, so the block written at `t` is
  block `t` of `act` of the whole arrays; the 25 blocks tile the 50000 rows, so the array ends holding `act`.
-/
import proofs.«120331_j635655160271_1_alg».proof.Proof.Gen.KernelIdeal.Frame
import proofs.«120331_j635655160271_1_alg».proof.Proof.KPay

set_option maxRecDepth 16384
set_option pp.maxSteps 5000
set_option pp.deepTerms false

noncomputable section

namespace Cert.KernelIdeal.Region0

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the arrays as the launch finds them. -/
def G (c : Dev nD) : S50000x128.Idx → EReal :=
  act (M := 50000) (K := 128) (N := 128) (V c main_v30) (V c main_v18) (V c main_v17) (V c main_arg3) (V c main_arg4)

/-- The printed index maps over the grid: the three row-blocked inputs and the output move together, block `t` at
    rows `2000·t`; the weights and the bias stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- The weights' block is the whole matrix. -/
theorem blk_w (c : Dev nD) (t : Fin cfg0.N) : iblk0 V c 3 t = V c main_arg3 := by
  obtain ⟨-, -, -, -, -, -, e0, e1, -, -, -⟩ := idx_facts t
  funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The bias' block is the whole vector. -/
theorem blk_b (c : Dev nD) (t : Fin cfg0.N) : iblk0 V c 4 t = V c main_arg4 := by
  obtain ⟨-, -, -, -, -, -, -, -, e0, -, -⟩ := idx_facts t
  funext y
  show V c main_arg4 (((cfg0.win 4).blk t).view.emb y) = V c main_arg4 y
  refine congrArg _ (funext fun a => Fin.ext ?_)
  match a with
  | ⟨0, _⟩ => show win0_4.index t (0 : Fin 1) * 128 + 1 * (y 0).val = (y 0).val; omega

/-- Block `t` of a row-blocked input at (p, k) is the array at (2000·t + p, k). -/
theorem blk_rows (c : Dev nD) (t : Fin cfg0.N) (p : Fin 2000) (q k : Fin 128) :
    iblk0 V c 0 t (ix2 p k) = V c main_v30 (ix2 ((((cfg0.win 5).blk t).view.emb (ix2 p q)) 0 : Fin 50000) k)
    ∧ iblk0 V c 1 t (ix2 p k) = V c main_v18 (ix2 ((((cfg0.win 5).blk t).view.emb (ix2 p q)) 0 : Fin 50000) k)
    ∧ iblk0 V c 2 t (ix2 p q) = V c main_v17 (((cfg0.win 5).blk t).view.emb (ix2 p q)) := by
  obtain ⟨a0, a1, b0, b1, c0, c1, -, -, -, d0, d1⟩ := idx_facts t
  refine ⟨?_, ?_, ?_⟩
  · show V c main_v30 (((cfg0.win 0).blk t).view.emb (ix2 p k)) = _
    refine congrArg _ (funext fun a => Fin.ext ?_)
    match a with
    | ⟨0, _⟩ => show win0_0.index t (0 : Fin 2) * 2000 + 1 * p.val = win0_5.index t (0 : Fin 2) * 2000 + 1 * p.val; omega
    | ⟨1, _⟩ => show win0_0.index t (1 : Fin 2) * 128 + 1 * k.val = k.val; omega
  · show V c main_v18 (((cfg0.win 1).blk t).view.emb (ix2 p k)) = _
    refine congrArg _ (funext fun a => Fin.ext ?_)
    match a with
    | ⟨0, _⟩ => show win0_1.index t (0 : Fin 2) * 2000 + 1 * p.val = win0_5.index t (0 : Fin 2) * 2000 + 1 * p.val; omega
    | ⟨1, _⟩ => show win0_1.index t (1 : Fin 2) * 128 + 1 * k.val = k.val; omega
  · show V c main_v17 (((cfg0.win 2).blk t).view.emb (ix2 p q)) = _
    refine congrArg _ (funext fun a => Fin.ext ?_)
    match a with
    | ⟨0, _⟩ => show win0_2.index t (0 : Fin 2) * 2000 + 1 * p.val = win0_5.index t (0 : Fin 2) * 2000 + 1 * p.val; omega
    | ⟨1, _⟩ => show win0_2.index t (1 : Fin 2) * 128 + 1 * q.val = win0_5.index t (1 : Fin 2) * 128 + 1 * q.val; omega

/-- What point `t` writes back is block `t` of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz2]
  simp only [View.ld_unit_zero (S := S2000x128) hz2, View.ld_unit_zero (S := S128x128) hz2, View.ld_unit_zero (S := S128) hz1]
  rw [blk_w, blk_b]
  funext j
  obtain ⟨p, q, rfl⟩ : ∃ (p : Fin 2000) (q : Fin 128), j = ix2 p q := ⟨j 0, j 1, eq_ix2 j⟩
  refine (pay_hidden (iblk0 V c 0 t) (iblk0 V c 1 t) (iblk0 V c 2 t) (V c main_arg3) (V c main_arg4) p q).trans ?_
  show _ = G V c (((cfg0.win 5).blk t).view.emb (ix2 p q))
  unfold G act
  have hq : ((((cfg0.win 5).blk t).view.emb (ix2 p q)) 1 : Fin 128) = q := by
    obtain ⟨-, -, -, -, -, -, -, -, -, -, d1⟩ := idx_facts t
    apply Fin.ext
    show win0_5.index t (1 : Fin 2) * 128 + 1 * q.val = q.val; omega
  refine congrArg₂ (· * ·) (congrArg elu ?_) (blk_rows V c t p q q).2.2
  exact dense_of_rows (V c main_v30) (V c main_v18) (iblk0 V c 0 t) (iblk0 V c 1 t) (V c main_arg3) (V c main_arg4) (ix2 p q) _
    (fun k => (blk_rows V c t p q k).1) (fun k => (blk_rows V c t p q k).2.1) hq.symm

/-- An index of the array is in point `t`'s block iff each coordinate is in the block's range on its axis. -/
theorem mem_blk (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v31).slice (win0_5.rect t)).set ↔ _
  rw [View.set_slice_whole, Rect.mem_set_unit]
  exact Iff.rfl

/-- Every row is in some block: row `r` in block `r / 2000`. -/
theorem cover (i : S50000x128.Idx) : ∃ t : Fin cfg0.N, (cfg0.win 5).flush t = true ∧ i ∈ ((cfg0.win 5).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, -, -, -, -, -, d0, d1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- The output array after the launch is the layer of the arrays the launch was given. -/
theorem value (c : Dev nD) : (dat0 V c).arrAt 5 cfg0.N = G V c :=
  (dat0 V c).arrAt_eq_of_cover 5 (G V c) (fun t _ => flushed_eq V c t) (cover)

end Cert.KernelIdeal.Region0

end
-- ==== Proof.KRegion1.lean ====
/-
  What the second hidden layer's launch leaves in its output array, as one function of the arrays it was given.

  The launch walks 25 blocks of 2000 rows. At block `t` the body reads rows `2000·t … 2000·t + 1999` of the
  aggregated features and of the two degree-factor arrays, and the whole weight matrix and bias, and writes rows
  `2000·t …` of the result. A layer's row depends on the same row of its inputs only, so the block written at `t` is
  block `t` of `act` of the whole arrays; the 25 blocks tile the 50000 rows, so the array ends holding `act`.
-/
import proofs.«120331_j635655160271_1_alg».proof.Proof.Gen.KernelIdeal.Frame
import proofs.«120331_j635655160271_1_alg».proof.Proof.KPay

set_option maxRecDepth 16384
set_option pp.maxSteps 5000
set_option pp.deepTerms false

noncomputable section

namespace Cert.KernelIdeal.Region1

open Cert.KernelIdeal Cert.KernelIdeal.Gen Cert.Gcn
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The layer of the arrays as the launch finds them. -/
def G (c : Dev nD) : S50000x128.Idx → EReal :=
  act (M := 50000) (K := 128) (N := 128) (V c main_v41) (V c main_v18) (V c main_v17) (V c main_arg5) (V c main_arg6)

/-- The printed index maps over the grid: the three row-blocked inputs and the output move together, block `t` at
    rows `2000·t`; the weights and the bias stay at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- The weights' block is the whole matrix. -/
theorem blk_w (c : Dev nD) (t : Fin cfg1.N) : iblk1 V c 3 t = V c main_arg5 := by
  obtain ⟨-, -, -, -, -, -, e0, e1, -, -, -⟩ := idx_facts t
  funext y
  show V c main_arg5 (((cfg1.win 3).blk t).view.emb y) = V c main_arg5 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias' block is the whole vector. -/
theorem blk_b (c : Dev nD) (t : Fin cfg1.N) : iblk1 V c 4 t = V c main_arg6 := by
  obtain ⟨-, -, -, -, -, -, -, -, e0, -, -⟩ := idx_facts t
  funext y
  show V c main_arg6 (((cfg1.win 4).blk t).view.emb y) = V c main_arg6 y
  refine congrArg _ (funext fun a => Fin.ext ?_)
  match a with
  | ⟨0, _⟩ => show win1_4.index t (0 : Fin 1) * 128 + 1 * (y 0).val = (y 0).val; omega

/-- Block `t` of a row-blocked input at (p, k) is the array at (2000·t + p, k). -/
theorem blk_rows (c : Dev nD) (t : Fin cfg1.N) (p : Fin 2000) (q k : Fin 128) :
    iblk1 V c 0 t (ix2 p k) = V c main_v41 (ix2 ((((cfg1.win 5).blk t).view.emb (ix2 p q)) 0 : Fin 50000) k)
    ∧ iblk1 V c 1 t (ix2 p k) = V c main_v18 (ix2 ((((cfg1.win 5).blk t).view.emb (ix2 p q)) 0 : Fin 50000) k)
    ∧ iblk1 V c 2 t (ix2 p q) = V c main_v17 (((cfg1.win 5).blk t).view.emb (ix2 p q)) := by
  obtain ⟨a0, a1, b0, b1, c0, c1, -, -, -, d0, d1⟩ := idx_facts t
  refine ⟨?_, ?_, ?_⟩
  · show V c main_v41 (((cfg1.win 0).blk t).view.emb (ix2 p k)) = _
    refine congrArg _ (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 128 + 1 * k.val = k.val; omega
  · show V c main_v18 (((cfg1.win 1).blk t).view.emb (ix2 p k)) = _
    refine congrArg _ (funext fun a => Fin.ext ?_)
    match a with
    | ⟨0, _⟩ => show win1_1.index t (0 : Fin 2) * 2000 + 1 * p.val = win1_5.index t (0 : Fin 2) * 2000 + 1 * p.val; omega
    | ⟨1, _⟩ => show win1_1.index t (1 : Fin 2) * 128 + 1 * k.val = k.val; omega
  · show V c main_v17 (((cfg1.win 2).blk t).view.emb (ix2 p q)) = _
    refine congrArg _ (funext fun a => Fin.ext ?_)
    match a with
    | ⟨0, _⟩ => show win1_2.index t (0 : Fin 2) * 2000 + 1 * p.val = win1_5.index t (0 : Fin 2) * 2000 + 1 * p.val; omega
    | ⟨1, _⟩ => show win1_2.index t (1 : Fin 2) * 128 + 1 * q.val = win1_5.index t (1 : Fin 2) * 128 + 1 * q.val; omega

/-- What point `t` writes back is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz2]
  simp only [View.ld_unit_zero (S := S2000x128) hz2, View.ld_unit_zero (S := S128x128) hz2, View.ld_unit_zero (S := S128) hz1]
  rw [blk_w, blk_b]
  funext j
  obtain ⟨p, q, rfl⟩ : ∃ (p : Fin 2000) (q : Fin 128), j = ix2 p q := ⟨j 0, j 1, eq_ix2 j⟩
  refine (pay_hidden' (iblk1 V c 0 t) (iblk1 V c 1 t) (iblk1 V c 2 t) (V c main_arg5) (V c main_arg6) p q).trans ?_
  show _ = G V c (((cfg1.win 5).blk t).view.emb (ix2 p q))
  unfold G act
  have hq : ((((cfg1.win 5).blk t).view.emb (ix2 p q)) 1 : Fin 128) = q := by
    obtain ⟨-, -, -, -, -, -, -, -, -, -, d1⟩ := idx_facts t
    apply Fin.ext
    show win1_5.index t (1 : Fin 2) * 128 + 1 * q.val = q.val; omega
  refine congrArg₂ (· * ·) (congrArg elu ?_) (blk_rows V c t p q q).2.2
  exact dense_of_rows (V c main_v41) (V c main_v18) (iblk1 V c 0 t) (iblk1 V c 1 t) (V c main_arg5) (V c main_arg6) (ix2 p q) _
    (fun k => (blk_rows V c t p q k).1) (fun k => (blk_rows V c t p q k).2.1) hq.symm

/-- An index of the array is in point `t`'s block iff each coordinate is in the block's range on its axis. -/
theorem mem_blk (t : Fin cfg1.N) (i : S50000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole main_v42).slice (win1_5.rect t)).set ↔ _
  rw [View.set_slice_whole, Rect.mem_set_unit]
  exact Iff.rfl

/-- Every row is in some block: row `r` in block `r / 2000`. -/
theorem cover (i : S50000x128.Idx) : ∃ t : Fin cfg1.N, (cfg1.win 5).flush t = true ∧ i ∈ ((cfg1.win 5).blk t).view.set := by
  have hN : cfg1.N = 25 := N_1
  have hi0 : (i 0).val < 50000 := (i 0).isLt
  have hi1 : (i 1).val < 128 := (i 1).isLt
  let t : Fin cfg1.N := ⟨(i 0).val / 2000, by rw [hN]; omega⟩
  obtain ⟨-, -, -, -, -, -, -, -, -, d0, d1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-- The output array after the launch is the layer of the arrays the launch was given. -/
theorem value (c : Dev nD) : (dat1 V c).arrAt 5 cfg1.N = G V c :=
  (dat1 V c).arrAt_eq_of_cover 5 (G V c) (fun t _ => flushed_eq V c t) (cover)

end Cert.KernelIdeal.Region1

end
-- ==== Proof.KRegion2.lean ====
/-
  What the last launch leaves in its two output arrays, as functions of the arrays it was given.

  The launch walks 25 blocks of 2000 rows. At block `t` the body reads rows `2000·t …` of the aggregated features
  and of the in-degree factors, and the two weight matrices and biases whole, and writes rows `2000·t …` of the
  embedding (`dense`) and of the head of the embedding. Both depend on the same row of the inputs only, so the blocks
  written at `t` are blocks `t` of `dense` and of `head (dense …)` of the whole arrays, and the 25 blocks tile the
  50000 rows of either output.
-/
import proofs.«120331_j635655160271_1_alg».proof.Proof.Gen.KernelIdeal.Frame
import proofs.«120331_j635655160271_1_alg».proof.Proof.KPay

set_option maxRecDepth 16384
set_option pp.maxSteps 5000
set_option pp.deepTerms false

noncomputable section

namespace Cert.KernelIdeal.Region2

open Cert.KernelIdeal Cert.KernelIdeal.Gen Cert.Gcn Cert.Dense
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The embedding of the arrays as the launch finds them. -/
def E (c : Dev nD) : S50000x128.Idx → EReal :=
  dense (M := 50000) (K := 128) (N := 128) (V c main_v52) (V c main_v18) (V c main_arg7) (V c main_arg8)

/-- The head of that embedding. -/
def H (c : Dev nD) : S50000x2.Idx → EReal :=
  head (M := 50000) (N := 128) (O := 2) (E V c) (V c main_arg9) (V c main_arg10)

/-- The printed index maps over the grid: the two row-blocked inputs and the two outputs move together, block `t`
    at rows `2000·t`; the weights and the biases stay at the origin. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The layer's weights' block is the whole matrix. -/
theorem blk_w (c : Dev nD) (t : Fin cfg2.N) : iblk2 V c 2 t = V c main_arg7 := by
  obtain ⟨-, -, -, -, e0, e1, -, -, -, -, -, -, -, -⟩ := idx_facts t
  funext y
  show V c main_arg7 (((cfg2.win 2).blk t).view.emb y) = V c main_arg7 y
  refine congrArg _ (funext fun a => Fin.ext ?_)
  match a with
  | ⟨0, _⟩ => show win2_2.index t (0 : Fin 2) * 128 + 1 * (y 0).val = (y 0).val; omega
  | ⟨1, _⟩ => show win2_2.index t (1 : Fin 2) * 128 + 1 * (y 1).val = (y 1).val; omega

/-- The layer's bias' block is the whole vector. -/
theorem blk_b (c : Dev nD) (t : Fin cfg2.N) : iblk2 V c 3 t = V c main_arg8 := by
  obtain ⟨-, -, -, -, -, -, e0, -, -, -, -, -, -, -⟩ := idx_facts t
  funext y
  show V c main_arg8 (((cfg2.win 3).blk t).view.emb y) = V c main_arg8 y
  refine congrArg _ (funext fun a => Fin.ext ?_)
  match a with
  | ⟨0, _⟩ => show win2_3.index t (0 : Fin 1) * 128 + 1 * (y 0).val = (y 0).val; omega

/-- The head's weights' block is the whole matrix. -/
theorem blk_wo (c : Dev nD) (t : Fin cfg2.N) : iblk2 V c 4 t = V c main_arg9 := by
  obtain ⟨-, -, -, -, -, -, -, e0, e1, -, -, -, -, -⟩ := idx_facts t
  funext y
  show V c main_arg9 (((cfg2.win 4).blk t).view.emb y) = V c main_arg9 y
  refine congrArg _ (funext fun a => Fin.ext ?_)
  match a with
  | ⟨0, _⟩ => show win2_4.index t (0 : Fin 2) * 128 + 1 * (y 0).val = (y 0).val; omega
  | ⟨1, _⟩ => show win2_4.index t (1 : Fin 2) * 2 + 1 * (y 1).val = (y 1).val; omega

/-- The head's bias' block is the whole vector. -/
theorem blk_bo (c : Dev nD) (t : Fin cfg2.N) : iblk2 V c 5 t = V c main_arg10 := by
  obtain ⟨-, -, -, -, -, -, -, -, -, e0, -, -, -, -⟩ := idx_facts t
  funext y
  show V c main_arg10 (((cfg2.win 5).blk t).view.emb y) = V c main_arg10 y
  refine congrArg _ (funext fun a => Fin.ext ?_)
  match a with
  | ⟨0, _⟩ => show win2_5.index t (0 : Fin 1) * 2 + 1 * (y 0).val = (y 0).val; omega

/-- Row `p` of block `t` is row `2000·t + p` of the array. -/
def rowOf (t : Fin cfg2.N) (p : Fin 2000) : Fin 50000 :=
  ⟨t.val * 2000 + p.val, by have hN : cfg2.N = 25 := N_2; have := t.isLt; have := p.isLt; omega⟩

/-- Block `t` of a row-blocked input at (p, k) is the array at (2000·t + p, k): the row both outputs' blocks sit at. -/
theorem blk_rows (c : Dev nD) (t : Fin cfg2.N) (p : Fin 2000) (k : Fin 128) :
    iblk2 V c 0 t (ix2 p k) = V c main_v52 (ix2 (rowOf t p) k)
    ∧ iblk2 V c 1 t (ix2 p k) = V c main_v18 (ix2 (rowOf t p) k) := by
  obtain ⟨a0, a1, b0, b1, -, -, -, -, -, -, -, -, -, -⟩ := idx_facts t
  refine ⟨?_, ?_⟩
  · show V c main_v52 (((cfg2.win 0).blk t).view.emb (ix2 p k)) = _
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * k.val = k.val; omega
  · show V c main_v18 (((cfg2.win 1).blk t).view.emb (ix2 p k)) = _
    refine congrArg _ (funext fun a => Fin.ext ?_)
    match a with
    | ⟨0, _⟩ => show win2_1.index t (0 : Fin 2) * 2000 + 1 * p.val = t.val * 2000 + p.val; omega
    | ⟨1, _⟩ => show win2_1.index t (1 : Fin 2) * 128 + 1 * k.val = k.val; omega

/-- The block's layer at (p, j) is the array's at (2000·t + p, j). -/
theorem dense_blk (c : Dev nD) (t : Fin cfg2.N) (p : Fin 2000) (j : Fin 128) (i : S50000x128.Idx)
    (h0 : (i 0).val = t.val * 2000 + p.val) (h1 : (i 1 : Fin 128) = j) :
    dense (iblk2 V c 0 t) (iblk2 V c 1 t) (V c main_arg7) (V c main_arg8) (ix2 p j) = E V c i := by
  unfold E
  have hr : (i 0 : Fin 50000) = rowOf t p := Fin.ext h0
  exact dense_of_rows (V c main_v52) (V c main_v18) (iblk2 V c 0 t) (iblk2 V c 1 t) (V c main_arg7) (V c main_arg8) (ix2 p j) i
    (fun k => by rw [hr]; exact (blk_rows V c t p k).1) (fun k => by rw [hr]; exact (blk_rows V c t p k).2) h1.symm

/-- What point `t` writes back to the embedding is block `t` of `E`. -/
theorem flushed_embed (c : Dev nD) (t : Fin cfg2.N) :
    (dat2 V c).flushed 6 t = ((cfg2.win 6).blk t).view.read (Elt Ideal) (E V c) := by
  show (cfg2.win 6).cut (grid2.coords t) ((dat2 V c).after 6 t) = _
  rw [after2_6]
  unfold out2_6
  rw [View.canon_unit_zero hz2]
  simp only [View.ld_unit_zero (S := S2000x128) hz2, View.ld_unit_zero (S := S128x128) hz2, View.ld_unit_zero (S := S128) hz1]
  rw [blk_w, blk_b]
  funext j
  obtain ⟨p, q, rfl⟩ : ∃ (p : Fin 2000) (q : Fin 128), j = ix2 p q := ⟨j 0, j 1, eq_ix2 j⟩
  refine (pay_embed (iblk2 V c 0 t) (iblk2 V c 1 t) (V c main_arg7) (V c main_arg8) p q).trans ?_
  show _ = E V c (((cfg2.win 6).blk t).view.emb (ix2 p q))
  obtain ⟨-, -, -, -, -, -, -, -, -, -, d0, d1, -, -⟩ := idx_facts t
  refine dense_blk V c t p q _ ?_ (Fin.ext ?_)
  · show win2_6.index t (0 : Fin 2) * 2000 + 1 * p.val = t.val * 2000 + p.val; omega
  · show win2_6.index t (1 : Fin 2) * 128 + 1 * q.val = q.val; omega

/-- What point `t` writes back to the head's array is block `t` of `H`. -/
theorem flushed_head (c : Dev nD) (t : Fin cfg2.N) :
    (dat2 V c).flushed 7 t = ((cfg2.win 7).blk t).view.read (Elt Ideal) (H V c) := by
  show (cfg2.win 7).cut (grid2.coords t) ((dat2 V c).after 7 t) = _
  rw [after2_7]
  unfold out2_7
  rw [View.canon_unit_zero hz2]
  simp only [View.ld_unit_zero (S := S2000x128) hz2, View.ld_unit_zero (S := S128x128) hz2, View.ld_unit_zero (S := S128) hz1,
    View.ld_unit_zero (S := S128x2) hz2, View.ld_unit_zero (S := S2) hz1]
  rw [blk_w, blk_b, blk_wo, blk_bo]
  funext j
  obtain ⟨p, o, rfl⟩ : ∃ (p : Fin 2000) (o : Fin 2), j = ix2 p o := ⟨j 0, j 1, eq_ix2 j⟩
  refine (pay_head (iblk2 V c 0 t) (iblk2 V c 1 t) (V c main_arg7) (V c main_arg8) (V c main_arg9) (V c main_arg10) p o).trans ?_
  show _ = H V c (((cfg2.win 7).blk t).view.emb (ix2 p o))
  obtain ⟨-, -, -, -, -, -, -, -, -, -, -, -, d0, d1⟩ := idx_facts t
  have h0 : ((((cfg2.win 7).blk t).view.emb (ix2 p o)) 0).val = t.val * 2000 + p.val := by
    show win2_7.index t (0 : Fin 2) * 2000 + 1 * p.val = t.val * 2000 + p.val; omega
  have h1 : ((((cfg2.win 7).blk t).view.emb (ix2 p o)) 1 : Fin 2) = o := by
    apply Fin.ext
    show win2_7.index t (1 : Fin 2) * 2 + 1 * o.val = o.val; omega
  unfold H head
  refine congrArg₂ (· + ·) ?_ (by rw [h1])
  unfold rowsTimes
  refine Finset.sum_congr rfl fun k _ => ?_
  refine congrArg₂ (· * ·) ?_ (by rw [h1])
  exact dense_blk V c t p k _ h0 rfl

theorem mem_blk6 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v53_0).slice (win2_6.rect t)).set ↔ _
  rw [View.set_slice_whole, Rect.mem_set_unit]
  exact Iff.rfl

theorem mem_blk7 (t : Fin cfg2.N) (i : S50000x2.Idx) :
    i ∈ ((cfg2.win 7).blk t).view.set ↔ ∀ a : Fin 2, win2_7.index t a * S2000x2.size a ≤ (i a).val ∧ (i a).val < win2_7.index t a * S2000x2.size a + S2000x2.size a := by
  show i ∈ ((View.whole main_v53_1).slice (win2_7.rect t)).set ↔ _
  rw [View.set_slice_whole, Rect.mem_set_unit]
  exact Iff.rfl

/-- Every row of the embedding is in some block: row `r` in block `r / 2000`. -/
theorem cover6 (i : S50000x128.Idx) : ∃ t : Fin cfg2.N, (cfg2.win 6).flush t = true ∧ i ∈ ((cfg2.win 6).blk t).view.set := by
  have hN : cfg2.N = 25 := N_2
  have hi0 : (i 0).val < 50000 := (i 0).isLt
  have hi1 : (i 1).val < 128 := (i 1).isLt
  let t : Fin cfg2.N := ⟨(i 0).val / 2000, by rw [hN]; omega⟩
  obtain ⟨-, -, -, -, -, -, -, -, -, -, d0, d1, -, -⟩ := idx_facts t
  have ht : t.val = (i 0).val / 2000 := rfl
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- Every row of the head's array is in some block. -/
theorem cover7 (i : S50000x2.Idx) : ∃ t : Fin cfg2.N, (cfg2.win 7).flush t = true ∧ i ∈ ((cfg2.win 7).blk t).view.set := by
  have hN : cfg2.N = 25 := N_2
  have hi0 : (i 0).val < 50000 := (i 0).isLt
  have hi1 : (i 1).val < 2 := (i 1).isLt
  let t : Fin cfg2.N := ⟨(i 0).val / 2000, by rw [hN]; omega⟩
  obtain ⟨-, -, -, -, -, -, -, -, -, -, -, -, d0, d1⟩ := idx_facts t
  have ht : t.val = (i 0).val / 2000 := rfl
  refine ⟨t, flush2_7 t, ?_⟩
  rw [mem_blk7]
  intro a
  match a with
  | ⟨0, _⟩ => show win2_7.index t (0 : Fin 2) * 2000 ≤ (i 0).val ∧ (i 0).val < win2_7.index t (0 : Fin 2) * 2000 + 2000; omega
  | ⟨1, _⟩ => show win2_7.index t (1 : Fin 2) * 2 ≤ (i 1).val ∧ (i 1).val < win2_7.index t (1 : Fin 2) * 2 + 2; omega

/-- The embedding array after the launch. -/
theorem value_embed (c : Dev nD) : (dat2 V c).arrAt 6 cfg2.N = E V c :=
  (dat2 V c).arrAt_eq_of_cover 6 (E V c) (fun t _ => flushed_embed V c t) (cover6)

/-- The head's array after the launch. -/
theorem value_head (c : Dev nD) : (dat2 V c).arrAt 7 cfg2.N = H V c :=
  (dat2 V c).arrAt_eq_of_cover 7 (H V c) (fun t _ => flushed_head V c t) (cover7)

end Cert.KernelIdeal.Region2

end
-- ==== Proof.Shared.lean ====
/-
  The host operations both programs apply, as three functions of whole arrays.

  `degFactor idx`: how many entries of the index list `idx` name each node (ones scatter-added into zeros), at least
  one, raised to the power −1/2, kept as a column. `wide`: that column repeated along the 128 features.
  `aggregate src dst h`: the rows of `h` gathered at the (wrapped) source of each edge and scatter-added into zeros at
  the edge's destination. Both programs spell these with the same operations in the same order, so they are carried
  as names and never opened.
-/
import proofs.«120331_j635655160271_1_alg».proof.Proof.Gen.KernelIdeal
import Idealize.ShloMosaic.PureOps.Ideal

noncomputable section

namespace Cert.Gcn

open Cert.KernelIdeal Cert.KernelIdeal.Gen Idealize.ShloMosaic

/-- An edge list's end points: 800000 node numbers. -/
abbrev Edges : Type := IVec S800000 32
/-- One row of 128 features per node. -/
abbrev Feat : Type := FVec Ideal S50000x128 .f32
/-- One number per node, as a column. -/
abbrev Col : Type := FVec Ideal S50000x1 .f32

/-- The degree factor of an end-point list: (max (count of each node) 1)^(−1/2). -/
def degFactor (idx : Edges) : Col :=
  Host.powf (F := Ideal)
    (broadcastInDim S50000x1 ![0] bcast_S50000_S50000x1_0
      (maximumf (F := Ideal)
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 idx)
          (broadcastInDim S800000 ![] bcast_S_S800000 (constant (F := Ideal) S_ .f32 0x3F800000#32)))
        (broadcastInDim S50000 ![] bcast_S_S50000 (constant (F := Ideal) S_ .f32 0x3F800000#32))))
    (broadcastInDim S50000x1 ![] bcast_S_S50000x1 (constant (F := Ideal) S_ .f32 0xBF000000#32))

/-- A column repeated along the features. -/
def wide (n : Col) : Feat := broadcastInDim S50000x128 ![0, 1] bcast_S50000x1_S50000x128_0_1 n

/-- Gather at the sources (a negative number wrapped by adding 50000), scatter-add at the destinations. -/
def aggregate (src dst : Edges) (h : Feat) : Feat :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 h
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

end Cert.Gcn

end
-- ==== Proof.KHost.lean ====
/-
  The kernel program's three stretches of host operations, read from any contents they may start from.

  The first stretch computes the two degree factors, repeats each along the features, scales the input features by
  the source factor and aggregates them over the edges; the second and third only aggregate the previous launch's
  result. A buffer a stretch does not write keeps its contents through it.
-/
import proofs.«120331_j635655160271_1_alg».proof.Proof.Gen.KernelIdeal.Launch
import proofs.«120331_j635655160271_1_alg».proof.Proof.Shared
import Idealize.ShloMosaic.Lib.StableHlo.Run

set_option maxRecDepth 16384
set_option pp.maxSteps 5000
set_option pp.deepTerms false

noncomputable section

namespace Cert.KernelIdeal.HostRead

open Cert.KernelIdeal Cert.KernelIdeal.Gen Cert.Gcn
open Idealize.ShloMosaic Idealize.ShloMosaic.TcCoe Idealize.SL.Sem Idealize.ShloMosaic.StableHlo

macro "w1" : term => `(by simp only [StableHlo.nullary_writes, StableHlo.unary_writes, StableHlo.binary_writes, StableHlo.ternary_writes, Finset.singleton_subset_iff, List.mem_toFinset]; exact List.mem_map_of_mem (by decide))

/-- The buffers `hostOps0` writes, in order. -/
abbrev hostOps0_W : List (Ref sig .tc) := [main_cst, main_v0, main_cst_0, main_v1, main_v2, main_v3, main_cst_1, main_v4, main_v5, main_v6, main_cst_2, main_v7, main_v8, main_v9, main_cst_3, main_v10, main_v11, main_cst_4, main_v12, main_v13, main_v14, main_cst_5, main_v15, main_v16, main_v17, main_v18, main_v19, main_v20, main_c, main_v21, main_v22, main_c_6, main_v23, main_v24, main_v25, main_v26, main_v27, main_cst_7, main_v28, main_v29, main_v30]
theorem hostOps0_writes : (hostOps0 : List (HloOp τ sig (Elt Ideal))).Forall fun op => op.writes ⊆ (hostOps0_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- The buffers `hostOps1` writes, in order. -/
abbrev hostOps1_W : List (Ref sig .tc) := [main_c_8, main_v32, main_v33, main_c_9, main_v34, main_v35, main_v36, main_v37, main_v38, main_cst_10, main_v39, main_v40, main_v41]
theorem hostOps1_writes : (hostOps1 : List (HloOp τ sig (Elt Ideal))).Forall fun op => op.writes ⊆ (hostOps1_W.map (Proc.devRef (τ := τ) .tc)).toFinset := by
  simp only [List.Forall]
  exact ⟨w1, w1, w1, w1, w1, w1, w1, w1, w1, w1, w1, w1, w1⟩

/-- The buffers `hostOps2` writes, in order. -/
abbrev hostOps2_W : List (Ref sig .tc) := [main_c_11, main_v43, main_v44, main_c_12, main_v45, main_v46, main_v47, main_v48, main_v49, main_cst_13, main_v50, main_v51, main_v52]
theorem hostOps2_writes : (hostOps2 : List (HloOp τ sig (Elt Ideal))).Forall fun op => op.writes ⊆ (hostOps2_W.map (Proc.devRef (τ := τ) .tc)).toFinset := by
  simp only [List.Forall]
  exact ⟨w1, w1, w1, w1, w1, w1, w1, w1, w1, w1, w1, w1, w1⟩

variable (W : Valuation τ sig (Elt Ideal))

theorem keep0 (r : Ref sig .tc) (h : r ∉ hostOps0_W) : after hostOps0 W (Proc.devRef .tc r) = W (Proc.devRef .tc r) :=
  after_of_writes_sub hostOps0 W hostOps0_writes h
theorem keep1 (r : Ref sig .tc) (h : r ∉ hostOps1_W) : after hostOps1 W (Proc.devRef .tc r) = W (Proc.devRef .tc r) :=
  after_of_writes_sub hostOps1 W hostOps1_writes h
theorem keep2 (r : Ref sig .tc) (h : r ∉ hostOps2_W) : after hostOps2 W (Proc.devRef .tc r) = W (Proc.devRef .tc r) :=
  after_of_writes_sub hostOps2 W hostOps2_writes h

attribute [local irreducible] Host.scatterAdd Host.gather Host.powf in
/-- The source factor, repeated along the features. -/
theorem read0_ns : after hostOps0 W (Proc.devRef .tc main_v17) = wide (degFactor (W (Proc.devRef .tc main_arg1))) := by
  after_results_simp
  rfl

attribute [local irreducible] Host.scatterAdd Host.gather Host.powf in
/-- The target factor, repeated along the features. -/
theorem read0_nd : after hostOps0 W (Proc.devRef .tc main_v18) = wide (degFactor (W (Proc.devRef .tc main_arg2))) := by
  after_results_simp
  rfl

attribute [local irreducible] Host.scatterAdd Host.gather Host.powf in
/-- The first aggregation: of the input features scaled by the source factor. -/
theorem read0_agg : after hostOps0 W (Proc.devRef .tc main_v30)
    = aggregate (W (Proc.devRef .tc main_arg1)) (W (Proc.devRef .tc main_arg2))
        (mulf (F := Ideal) (φ := .f32) (W (Proc.devRef .tc main_arg0)) (wide (degFactor (W (Proc.devRef .tc main_arg1))))) := by
  after_results_simp
  rfl

attribute [local irreducible] Host.scatterAdd Host.gather Host.powf in
/-- The second aggregation: of the first launch's result. -/
theorem read1_agg : after hostOps1 W (Proc.devRef .tc main_v41)
    = aggregate (W (Proc.devRef .tc main_arg1)) (W (Proc.devRef .tc main_arg2)) (W (Proc.devRef .tc main_v31)) := by
  after_results_simp
  rfl

attribute [local irreducible] Host.scatterAdd Host.gather Host.powf in
/-- The third aggregation: of the second launch's result. -/
theorem read2_agg : after hostOps2 W (Proc.devRef .tc main_v52)
    = aggregate (W (Proc.devRef .tc main_arg1)) (W (Proc.devRef .tc main_arg2)) (W (Proc.devRef .tc main_v42)) := by
  after_results_simp
  rfl

end Cert.KernelIdeal.HostRead

end
-- ==== Proof.KSpec.lean ====
/-
  The kernel program's two results as functions of its argument arrays.

  With `ns`, `nd` the source and target degree factors repeated along the features: the input features are scaled by
  `ns` and aggregated over the edges; each hidden layer applies `act` (scale by `nd`, weights, bias, unit, scale by `ns`)
  and the result is aggregated again; the last layer is `dense` (no unit, no rescaling), and the head is applied to it.
-/
import proofs.«120331_j635655160271_1_alg».proof.Proof.Spec
import proofs.«120331_j635655160271_1_alg».proof.Proof.Shared

noncomputable section

namespace Cert.Gcn

open Idealize.ShloMosaic

/-- A 128 × 128 weight matrix, a bias of 128, the head's 128 × 2 matrix and its bias of 2, the head's result. -/
abbrev Wt : Type := (⟨2, ![128, 128]⟩ : Shape).Idx → EReal
abbrev Bs : Type := (⟨1, ![128]⟩ : Shape).Idx → EReal
abbrev WtO : Type := (⟨2, ![128, 2]⟩ : Shape).Idx → EReal
abbrev BsO : Type := (⟨1, ![2]⟩ : Shape).Idx → EReal
abbrev Out : Type := (⟨2, ![50000, 2]⟩ : Shape).Idx → EReal

/-- The embedding the kernel program computes. -/
def embedK (x : Feat) (src dst : Edges) (w1 : Wt) (b1 : Bs) (w2 : Wt) (b2 : Bs) (w3 : Wt) (b3 : Bs) : Feat :=
  dense (M := 50000) (K := 128) (N := 128)
    (aggregate src dst
      (act (M := 50000) (K := 128) (N := 128)
        (aggregate src dst
          (act (M := 50000) (K := 128) (N := 128)
            (aggregate src dst (mulf (F := Ideal) x (wide (degFactor src))))
            (wide (degFactor dst)) (wide (degFactor src)) w1 b1))
        (wide (degFactor dst)) (wide (degFactor src)) w2 b2))
    (wide (degFactor dst)) w3 b3

/-- The head of an embedding. -/
def headK (e : Feat) (wo : WtO) (bo : BsO) : Out := head (M := 50000) (N := 128) (O := 2) e wo bo

end Cert.Gcn

end
-- ==== Proof.KValue.lean ====
/-
  The kernel program's run, read: its two results as functions of the argument arrays.

  The memory at each boundary of the program is a fold from the launch memory. Read backwards from the last launch:
  its two outputs are `dense` and its head of the arrays it was entered with; of those the aggregated features come
  from the third host stretch applied to the second launch's output, which is `act` of the arrays that launch was
  entered with; and so on down to the first host stretch over the launch memory. A buffer that a stretch or a
  launch does not write is carried back unchanged, and a launch leaves its input arrays as it found them.
-/
import proofs.«120331_j635655160271_1_alg».proof.Proof.KRun
import proofs.«120331_j635655160271_1_alg».proof.Proof.KRegion0
import proofs.«120331_j635655160271_1_alg».proof.Proof.KRegion1
import proofs.«120331_j635655160271_1_alg».proof.Proof.KRegion2
import proofs.«120331_j635655160271_1_alg».proof.Proof.KHost
import proofs.«120331_j635655160271_1_alg».proof.Proof.KSpec

set_option maxRecDepth 16384
set_option pp.maxSteps 5000
set_option pp.deepTerms false

noncomputable section

namespace Cert.KernelIdeal.Value

open Cert.KernelIdeal Cert.KernelIdeal.Gen Cert.KernelIdeal.HostRead Cert.Gcn
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg) (c : Dev nD)

/-! ## Entering the first launch -/

theorem W1_arg (r : Ref sig .tc) (h : r ∉ hostOps0_W) : W1 m ρ c (Proc.devRef .tc r) = m ((c : Thread nD τ).loc r) :=
  keep0 (W0 m ρ c) r h

theorem W1_ns : W1 m ρ c (Proc.devRef .tc main_v17) = wide (degFactor (m ((c : Thread nD τ).loc main_arg1))) := read0_ns (W0 m ρ c)
theorem W1_nd : W1 m ρ c (Proc.devRef .tc main_v18) = wide (degFactor (m ((c : Thread nD τ).loc main_arg2))) := read0_nd (W0 m ρ c)
theorem W1_agg : W1 m ρ c (Proc.devRef .tc main_v30)
    = aggregate (m ((c : Thread nD τ).loc main_arg1)) (m ((c : Thread nD τ).loc main_arg2)) (mulf (F := Ideal) (φ := .f32) (m ((c : Thread nD τ).loc main_arg0)) (wide (degFactor (m ((c : Thread nD τ).loc main_arg1))))) := read0_agg (W0 m ρ c)

/-! ## Leaving the first launch -/

theorem W2_arg (r : Ref sig .tc) (hr : ∀ w, Pipeline.arrRef spec0 w ≠ r) (h : r ∉ hostOps0_W) :
    W2 m ρ c (Proc.devRef .tc r) = m ((c : Thread nD τ).loc r) :=
  (W2_of_ne m ρ c r hr).trans (W1_arg m ρ c r h)

theorem W2_nd : W2 m ρ c (Proc.devRef .tc main_v18) = wide (degFactor (m ((c : Thread nD τ).loc main_arg2))) :=
  (W2_arr m ρ c 1).trans ((((dat0 (V1 m ρ) c).arrAt_in 1 rfl _).trans (A_eq0 (V1 m ρ) c 1)).trans (W1_nd m ρ c))
theorem W2_ns : W2 m ρ c (Proc.devRef .tc main_v17) = wide (degFactor (m ((c : Thread nD τ).loc main_arg1))) :=
  (W2_arr m ρ c 2).trans ((((dat0 (V1 m ρ) c).arrAt_in 2 rfl _).trans (A_eq0 (V1 m ρ) c 2)).trans (W1_ns m ρ c))

/-- The first hidden layer. -/
theorem W2_h : W2 m ρ c (Proc.devRef .tc main_v31)
    = act (M := 50000) (K := 128) (N := 128)
        (aggregate (m ((c : Thread nD τ).loc main_arg1)) (m ((c : Thread nD τ).loc main_arg2)) (mulf (F := Ideal) (φ := .f32) (m ((c : Thread nD τ).loc main_arg0)) (wide (degFactor (m ((c : Thread nD τ).loc main_arg1))))))
        (wide (degFactor (m ((c : Thread nD τ).loc main_arg2)))) (wide (degFactor (m ((c : Thread nD τ).loc main_arg1)))) (m ((c : Thread nD τ).loc main_arg3)) (m ((c : Thread nD τ).loc main_arg4)) := by
  refine (W2_arr m ρ c 5).trans ((Region0.value (V1 m ρ) c).trans ?_)
  unfold Region0.G
  rw [show V1 m ρ c main_v30 = _ from W1_agg m ρ c, show V1 m ρ c main_v18 = _ from W1_nd m ρ c,
    show V1 m ρ c main_v17 = _ from W1_ns m ρ c, show V1 m ρ c main_arg3 = _ from W1_arg m ρ c main_arg3 (by decide),
    show V1 m ρ c main_arg4 = _ from W1_arg m ρ c main_arg4 (by decide)]

/-! ## Entering the second launch -/

theorem W3_arg (r : Ref sig .tc) (h1 : r ∉ hostOps1_W) (hr : ∀ w, Pipeline.arrRef spec0 w ≠ r) (h : r ∉ hostOps0_W) :
    W3 m ρ c (Proc.devRef .tc r) = m ((c : Thread nD τ).loc r) :=
  (keep1 (W2 m ρ c) r h1).trans (W2_arg m ρ c r hr h)

theorem W3_nd : W3 m ρ c (Proc.devRef .tc main_v18) = wide (degFactor (m ((c : Thread nD τ).loc main_arg2))) :=
  (keep1 (W2 m ρ c) main_v18 (by decide)).trans (W2_nd m ρ c)
theorem W3_ns : W3 m ρ c (Proc.devRef .tc main_v17) = wide (degFactor (m ((c : Thread nD τ).loc main_arg1))) :=
  (keep1 (W2 m ρ c) main_v17 (by decide)).trans (W2_ns m ρ c)
theorem W3_agg : W3 m ρ c (Proc.devRef .tc main_v41)
    = aggregate (m ((c : Thread nD τ).loc main_arg1)) (m ((c : Thread nD τ).loc main_arg2)) (W2 m ρ c (Proc.devRef .tc main_v31)) := by
  refine (read1_agg (W2 m ρ c)).trans ?_
  rw [W2_arg m ρ c main_arg1 (by decide) (by decide), W2_arg m ρ c main_arg2 (by decide) (by decide)]

/-! ## Leaving the second launch -/

theorem W4_arg (r : Ref sig .tc) (hr1 : ∀ w, Pipeline.arrRef spec1 w ≠ r) (h1 : r ∉ hostOps1_W)
    (hr : ∀ w, Pipeline.arrRef spec0 w ≠ r) (h : r ∉ hostOps0_W) :
    W4 m ρ c (Proc.devRef .tc r) = m ((c : Thread nD τ).loc r) :=
  (W4_of_ne m ρ c r hr1).trans (W3_arg m ρ c r h1 hr h)

theorem W4_nd : W4 m ρ c (Proc.devRef .tc main_v18) = wide (degFactor (m ((c : Thread nD τ).loc main_arg2))) :=
  (W4_arr m ρ c 1).trans ((((dat1 (V3 m ρ) c).arrAt_in 1 rfl _).trans (A_eq1 (V3 m ρ) c 1)).trans (W3_nd m ρ c))

/-- The second hidden layer, of the first aggregated. -/
theorem W4_h : W4 m ρ c (Proc.devRef .tc main_v42)
    = act (M := 50000) (K := 128) (N := 128)
        (aggregate (m ((c : Thread nD τ).loc main_arg1)) (m ((c : Thread nD τ).loc main_arg2)) (W2 m ρ c (Proc.devRef .tc main_v31)))
        (wide (degFactor (m ((c : Thread nD τ).loc main_arg2)))) (wide (degFactor (m ((c : Thread nD τ).loc main_arg1)))) (m ((c : Thread nD τ).loc main_arg5)) (m ((c : Thread nD τ).loc main_arg6)) := by
  refine (W4_arr m ρ c 5).trans ((Region1.value (V3 m ρ) c).trans ?_)
  unfold Region1.G
  rw [show V3 m ρ c main_v41 = _ from W3_agg m ρ c, show V3 m ρ c main_v18 = _ from W3_nd m ρ c,
    show V3 m ρ c main_v17 = _ from W3_ns m ρ c,
    show V3 m ρ c main_arg5 = _ from W3_arg m ρ c main_arg5 (by decide) (by decide) (by decide),
    show V3 m ρ c main_arg6 = _ from W3_arg m ρ c main_arg6 (by decide) (by decide) (by decide)]

/-! ## Entering the last launch -/

theorem W5_arg (r : Ref sig .tc) (h2 : r ∉ hostOps2_W) (hr1 : ∀ w, Pipeline.arrRef spec1 w ≠ r) (h1 : r ∉ hostOps1_W)
    (hr : ∀ w, Pipeline.arrRef spec0 w ≠ r) (h : r ∉ hostOps0_W) :
    W5 m ρ c (Proc.devRef .tc r) = m ((c : Thread nD τ).loc r) :=
  (keep2 (W4 m ρ c) r h2).trans (W4_arg m ρ c r hr1 h1 hr h)

theorem W5_nd : W5 m ρ c (Proc.devRef .tc main_v18) = wide (degFactor (m ((c : Thread nD τ).loc main_arg2))) :=
  (keep2 (W4 m ρ c) main_v18 (by decide)).trans (W4_nd m ρ c)
theorem W5_agg : W5 m ρ c (Proc.devRef .tc main_v52)
    = aggregate (m ((c : Thread nD τ).loc main_arg1)) (m ((c : Thread nD τ).loc main_arg2)) (W4 m ρ c (Proc.devRef .tc main_v42)) := by
  refine (read2_agg (W4 m ρ c)).trans ?_
  rw [W4_arg m ρ c main_arg1 (by decide) (by decide) (by decide) (by decide),
    W4_arg m ρ c main_arg2 (by decide) (by decide) (by decide) (by decide)]

/-! ## The results -/

/-- The embedding. -/
theorem embed_eq : W6 m ρ c (Proc.devRef .tc main_v53_0)
    = embedK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 6).trans ((Region2.value_embed (V5 m ρ) c).trans ?_)
  unfold Region2.E embedK
  rw [show V5 m ρ c main_v52 = _ from W5_agg m ρ c, show V5 m ρ c main_v18 = _ from W5_nd m ρ c,
    show V5 m ρ c main_arg7 = _ from W5_arg m ρ c main_arg7 (by decide) (by decide) (by decide) (by decide) (by decide),
    show V5 m ρ c main_arg8 = _ from W5_arg m ρ c main_arg8 (by decide) (by decide) (by decide) (by decide) (by decide),
    W4_h, W2_h]

/-- The head of the embedding. -/
theorem head_eq : W6 m ρ c (Proc.devRef .tc main_v53_1)
    = headK (embedK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10)) := by
  refine (W6_arr m ρ c 7).trans ((Region2.value_head (V5 m ρ) c).trans ?_)
  unfold Region2.H headK
  rw [show V5 m ρ c main_arg9 = _ from W5_arg m ρ c main_arg9 (by decide) (by decide) (by decide) (by decide) (by decide),
    show V5 m ρ c main_arg10 = _ from W5_arg m ρ c main_arg10 (by decide) (by decide) (by decide) (by decide) (by decide)]
  refine congrArg (fun e => head (M := 50000) (N := 128) (O := 2) e _ _) ?_
  exact ((Region2.value_embed (V5 m ρ) c).symm.trans (W6_arr m ρ c 6).symm).trans (embed_eq m ρ c)

/-- The run, read: the two results as functions of the arguments, the arguments unchanged. -/
theorem run : θ_run defs (onTc (τ := τ) (main (F := Ideal))) ⟨m, fun _ => 0, ρ⟩ (fun r => ∀ c : Dev nD,
      r.2.mem ((c.tc : Thread nD τ).loc main_v53_1)
        = headK (embedK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg10))
      ∧ r.2.mem ((c.tc : Thread nD τ).loc main_v53_0)
        = embedK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (head_eq m ρ c), (h c).2.1.trans (embed_eq m ρ c), (h c).2.2⟩)
    (NamedRun.run m ρ)

end Cert.KernelIdeal.Value

end
-- ==== Proof.RefRun.lean ====
/-
  The run of the reference's @main. The reference is a program of StableHLO operations only (no kernel): three
  graph-convolution layers over 50000 nodes with 128 features and 800000 edges (source `%arg1`, target `%arg2`),
  then a linear read-out to two output channels. @main first counts each node's out- and in-degree (a scatter-add of ones at
  the edges' ends), clamps the counts at one from below and raises them to the power -1/2 (`opsNorm`). A layer
  scales the features by the source vector, gathers each edge's source row, scatter-adds it at the edge's target,
  scales by the target vector, multiplies by the layer's weights and adds its bias (`opsL1`, `opsL2`, `opsL3`; the last
  also holds the read-out, a second product and bias). Between the layers `elu` is applied, `x` where `x > 0` and
  `exp x - 1` elsewhere, as a module-local function that itself calls jnp's `_where` twice: a call means the callee's
  body on the operands, so the fifteen operations of one application are listed inline (`opsE1`, `opsE2`) over that
  call's own buffers.

  @main is that straight line (`main_eq`), so its run is the library's `run_seq`: from any memory with zero counters
  every weakly fair execution terminates and each buffer ends at the fold of the operations' results over the launch
  contents (`run_main`).
-/
import proofs.«120331_j635655160271_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## @main's operations, in six consecutive stretches -/

/-- From `%cst` to `%16`: the out-degree `%3` and the in-degree `%6` of every node (ones scatter-added at the edges'
    sources, at their targets), each clamped below at one, as a column, to the power -1/2: `%11` and `%16`. -/
abbrev opsNorm : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → (⟨S800000, .f32⟩ : BufTy).Contents (Elt F)),
    StableHlo.nullary main_cst_0 (constant S_ .f32 0x00000000#32),
    StableHlo.unary main_cst_0 main_v1 (broadcastInDim S50000 ![] bcast_S_S50000 : (⟨S_, .f32⟩ : BufTy).Contents (Elt F) → (⟨S50000, .f32⟩ : BufTy).Contents (Elt F)),
    StableHlo.unary main_arg1 main_v2 (broadcastInDim S800000x1 ![0] bcast_S800000_S800000x1_0 : (⟨S800000, .i32⟩ : BufTy).Contents (Elt F) → (⟨S800000x1, .i32⟩ : BufTy).Contents (Elt F)),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x00000000#32),
    StableHlo.unary main_cst_1 main_v4 (broadcastInDim S50000 ![] bcast_S_S50000 : (⟨S_, .f32⟩ : BufTy).Contents (Elt F) → (⟨S50000, .f32⟩ : BufTy).Contents (Elt F)),
    StableHlo.unary main_arg2 main_v5 (broadcastInDim S800000x1 ![0] bcast_S800000_S800000x1_0 : (⟨S800000, .i32⟩ : BufTy).Contents (Elt F) → (⟨S800000x1, .i32⟩ : BufTy).Contents (Elt F)),
    StableHlo.ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_2 (constant S_ .f32 0x3F800000#32),
    StableHlo.unary main_cst_2 main_v7 (broadcastInDim S50000 ![] bcast_S_S50000 : (⟨S_, .f32⟩ : BufTy).Contents (Elt F) → (⟨S50000, .f32⟩ : BufTy).Contents (Elt F)),
    StableHlo.binary main_v3 main_v7 main_v8 (maximumf : (⟨S50000, .f32⟩ : BufTy).Contents (Elt F) → (⟨S50000, .f32⟩ : BufTy).Contents (Elt F) → (⟨S50000, .f32⟩ : BufTy).Contents (Elt F)),
    StableHlo.unary main_v8 main_v9 (broadcastInDim S50000x1 ![0] bcast_S50000_S50000x1_0 : (⟨S50000, .f32⟩ : BufTy).Contents (Elt F) → (⟨S50000x1, .f32⟩ : BufTy).Contents (Elt F)),
    StableHlo.nullary main_cst_3 (constant S_ .f32 0xBF000000#32),
    StableHlo.unary main_cst_3 main_v10 (broadcastInDim S50000x1 ![] bcast_S_S50000x1 : (⟨S_, .f32⟩ : BufTy).Contents (Elt F) → (⟨S50000x1, .f32⟩ : BufTy).Contents (Elt F)),
    StableHlo.binary main_v9 main_v10 main_v11 (Host.powf : (⟨S50000x1, .f32⟩ : BufTy).Contents (Elt F) → (⟨S50000x1, .f32⟩ : BufTy).Contents (Elt F) → (⟨S50000x1, .f32⟩ : BufTy).Contents (Elt F)),
    StableHlo.nullary main_cst_4 (constant S_ .f32 0x3F800000#32),
    StableHlo.unary main_cst_4 main_v12 (broadcastInDim S50000 ![] bcast_S_S50000 : (⟨S_, .f32⟩ : BufTy).Contents (Elt F) → (⟨S50000, .f32⟩ : BufTy).Contents (Elt F)),
    StableHlo.binary main_v6 main_v12 main_v13 (maximumf : (⟨S50000, .f32⟩ : BufTy).Contents (Elt F) → (⟨S50000, .f32⟩ : BufTy).Contents (Elt F) → (⟨S50000, .f32⟩ : BufTy).Contents (Elt F)),
    StableHlo.unary main_v13 main_v14 (broadcastInDim S50000x1 ![0] bcast_S50000_S50000x1_0 : (⟨S50000, .f32⟩ : BufTy).Contents (Elt F) → (⟨S50000x1, .f32⟩ : BufTy).Contents (Elt F)),
    StableHlo.nullary main_cst_5 (constant S_ .f32 0xBF000000#32),
    StableHlo.unary main_cst_5 main_v15 (broadcastInDim S50000x1 ![] bcast_S_S50000x1 : (⟨S_, .f32⟩ : BufTy).Contents (Elt F) → (⟨S50000x1, .f32⟩ : BufTy).Contents (Elt F)),
    StableHlo.binary main_v14 main_v15 main_v16 (Host.powf : (⟨S50000x1, .f32⟩ : BufTy).Contents (Elt F) → (⟨S50000x1, .f32⟩ : BufTy).Contents (Elt F) → (⟨S50000x1, .f32⟩ : BufTy).Contents (Elt F)) ]

/-- From `%17` to `%34`, the first layer up to its activation: the features scaled by `%11`, each edge's source row
    gathered (a negative index wrapped by 50000 first) and scatter-added at its target, scaled by `%16`, times the
    weights `%arg3` plus the bias `%arg4`. -/
abbrev opsL1 : List (HloOp τ sig (Elt F)) :=
  [ StableHlo.unary main_v11 main_v17 (broadcastInDim S50000x128 ![0, 1] bcast_S50000x1_S50000x128_0_1 : (⟨S50000x1, .f32⟩ : BufTy).Contents (Elt F) → (⟨S50000x128, .f32⟩ : BufTy).Contents (Elt F)),
    StableHlo.binary main_arg0 main_v17 main_v18 (mulf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_arg1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v21 (broadcastInDim S800000 ![] bcast_S_S800000 : (⟨S_, .i32⟩ : BufTy).Contents (Elt F) → (⟨S800000, .i32⟩ : BufTy).Contents (Elt F)),
    StableHlo.binary main_arg1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_arg1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_v18 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_7 (constant S_ .f32 0x00000000#32),
    StableHlo.unary main_cst_7 main_v26 (broadcastInDim S50000x128 ![] bcast_S_S50000x128 : (⟨S_, .f32⟩ : BufTy).Contents (Elt F) → (⟨S50000x128, .f32⟩ : BufTy).Contents (Elt F)),
    StableHlo.unary main_arg2 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v16 main_v29 (broadcastInDim S50000x128 ![0, 1] bcast_S50000x1_S50000x128_0_1 : (⟨S50000x1, .f32⟩ : BufTy).Contents (Elt F) → (⟨S50000x128, .f32⟩ : BufTy).Contents (Elt F)),
    StableHlo.binary main_v28 main_v29 main_v30 (mulf : (⟨S50000x128, .f32⟩ : BufTy).Contents (Elt F) → (⟨S50000x128, .f32⟩ : BufTy).Contents (Elt F) → (⟨S50000x128, .f32⟩ : BufTy).Contents (Elt F)),
    StableHlo.binary main_v30 main_arg3 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v32 (broadcastInDim S1x128 ![1] bcast_S128_S1x128_1 : (⟨S128, .f32⟩ : BufTy).Contents (Elt F) → (⟨S1x128, .f32⟩ : BufTy).Contents (Elt F)),
    StableHlo.unary main_v32 main_v33 (broadcastInDim S50000x128 ![0, 1] bcast_S1x128_S50000x128_0_1 : (⟨S1x128, .f32⟩ : BufTy).Contents (Elt F) → (⟨S50000x128, .f32⟩ : BufTy).Contents (Elt F)),
    StableHlo.binary main_v31 main_v33 main_v34 (addf : (⟨S50000x128, .f32⟩ : BufTy).Contents (Elt F) → (⟨S50000x128, .f32⟩ : BufTy).Contents (Elt F) → (⟨S50000x128, .f32⟩ : BufTy).Contents (Elt F)) ]

/-- `%35 = elu(%34)`, its callees' bodies in place, over the first call's buffers: `elu`'s seven (zero broadcast and
    `x > 0`, twice; a third scalar zero), `_where`'s three (that zero converted to its own type, broadcast, the select
    of it where `x > 0` and of `x` elsewhere), `elu`'s next four (`exp · - 1`, the constant one broadcast, their product),
    `_where_0`'s one (`x` where `x > 0`, that product elsewhere), written to `%35`. -/
abbrev opsE1 : List (HloOp τ sig (Elt F)) :=
  [ TRef.nullary main_call0.cst (constant S_ .f32 0x00000000#32),
    TRef.unary main_call0.cst main_call0.v0 (broadcastInDim S50000x128 ![] bcast_S_S50000x128),
    TRef.binary (.of main_v34 : TRef sig ⟨S50000x128, .f32⟩) main_call0.v0 main_call0.v1 (cmpf .ogt),
    TRef.nullary main_call0.cst_0 (constant S_ .f32 0x00000000#32),
    TRef.unary main_call0.cst_0 main_call0.v2 (broadcastInDim S50000x128 ![] bcast_S_S50000x128),
    TRef.binary (.of main_v34 : TRef sig ⟨S50000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S50000x128 ![] bcast_S_S50000x128),
    TRef.ternary main_call0.v3 main_call0.call0.v1 (.of main_v34 : TRef sig ⟨S50000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S50000x128 ![] bcast_S_S50000x128),
    TRef.binary main_call0.v6 main_call0.v5 main_call0.v7 mulf,
    TRef.ternary main_call0.v1 (.of main_v34 : TRef sig ⟨S50000x128, .f32⟩) main_call0.v7 main_call0.call1.v0 select ]

/-- From `%36` to `%53`, the second layer up to its activation: as the first, from `%35`, with `%arg5` and `%arg6`. -/
abbrev opsL2 : List (HloOp τ sig (Elt F)) :=
  [ StableHlo.unary main_v11 main_v36 (broadcastInDim S50000x128 ![0, 1] bcast_S50000x1_S50000x128_0_1 : (⟨S50000x1, .f32⟩ : BufTy).Contents (Elt F) → (⟨S50000x128, .f32⟩ : BufTy).Contents (Elt F)),
    StableHlo.binary main_v35 main_v36 main_v37 (mulf : (⟨S50000x128, .f32⟩ : BufTy).Contents (Elt F) → (⟨S50000x128, .f32⟩ : BufTy).Contents (Elt F) → (⟨S50000x128, .f32⟩ : BufTy).Contents (Elt F)),
    StableHlo.nullary main_c_8 (constantI S_ 32 0#32),
    StableHlo.unary main_c_8 main_v38 (broadcastInDim S800000 ![] bcast_S_S800000 : (⟨S_, .i32⟩ : BufTy).Contents (Elt F) → (⟨S800000, .i32⟩ : BufTy).Contents (Elt F)),
    StableHlo.binary main_arg1 main_v38 main_v39 (cmpi .slt : (⟨S800000, .i32⟩ : BufTy).Contents (Elt F) → (⟨S800000, .i32⟩ : BufTy).Contents (Elt F) → (⟨S800000, .i1⟩ : BufTy).Contents (Elt F)),
    StableHlo.nullary main_c_9 (constantI S_ 32 50000#32),
    StableHlo.unary main_c_9 main_v40 (broadcastInDim S800000 ![] bcast_S_S800000 : (⟨S_, .i32⟩ : BufTy).Contents (Elt F) → (⟨S800000, .i32⟩ : BufTy).Contents (Elt F)),
    StableHlo.binary main_arg1 main_v40 main_v41 (addi : (⟨S800000, .i32⟩ : BufTy).Contents (Elt F) → (⟨S800000, .i32⟩ : BufTy).Contents (Elt F) → (⟨S800000, .i32⟩ : BufTy).Contents (Elt F)),
    StableHlo.ternary main_v39 main_v41 main_arg1 main_v42 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v42 main_v43 (broadcastInDim S800000x1 ![0] bcast_S800000_S800000x1_0 : (⟨S800000, .i32⟩ : BufTy).Contents (Elt F) → (⟨S800000x1, .i32⟩ : BufTy).Contents (Elt F)),
    StableHlo.binary main_v37 main_v43 main_v44 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_10 (constant S_ .f32 0x00000000#32),
    StableHlo.unary main_cst_10 main_v45 (broadcastInDim S50000x128 ![] bcast_S_S50000x128 : (⟨S_, .f32⟩ : BufTy).Contents (Elt F) → (⟨S50000x128, .f32⟩ : BufTy).Contents (Elt F)),
    StableHlo.unary main_arg2 main_v46 (broadcastInDim S800000x1 ![0] bcast_S800000_S800000x1_0 : (⟨S800000, .i32⟩ : BufTy).Contents (Elt F) → (⟨S800000x1, .i32⟩ : BufTy).Contents (Elt F)),
    StableHlo.ternary main_v45 main_v46 main_v44 main_v47 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v16 main_v48 (broadcastInDim S50000x128 ![0, 1] bcast_S50000x1_S50000x128_0_1 : (⟨S50000x1, .f32⟩ : BufTy).Contents (Elt F) → (⟨S50000x128, .f32⟩ : BufTy).Contents (Elt F)),
    StableHlo.binary main_v47 main_v48 main_v49 (mulf : (⟨S50000x128, .f32⟩ : BufTy).Contents (Elt F) → (⟨S50000x128, .f32⟩ : BufTy).Contents (Elt F) → (⟨S50000x128, .f32⟩ : BufTy).Contents (Elt F)),
    StableHlo.binary main_v49 main_arg5 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S50000x128 ![0, 1] bcast_S1x128_S50000x128_0_1 : (⟨S1x128, .f32⟩ : BufTy).Contents (Elt F) → (⟨S50000x128, .f32⟩ : BufTy).Contents (Elt F)),
    StableHlo.binary main_v50 main_v52 main_v53 (addf : (⟨S50000x128, .f32⟩ : BufTy).Contents (Elt F) → (⟨S50000x128, .f32⟩ : BufTy).Contents (Elt F) → (⟨S50000x128, .f32⟩ : BufTy).Contents (Elt F)) ]

/-- `%54 = elu(%53)`, as `opsE1`, over the second call's buffers. -/
abbrev opsE2 : List (HloOp τ sig (Elt F)) :=
  [ TRef.nullary main_call1.cst (constant S_ .f32 0x00000000#32),
    TRef.unary main_call1.cst main_call1.v0 (broadcastInDim S50000x128 ![] bcast_S_S50000x128),
    TRef.binary (.of main_v53 : TRef sig ⟨S50000x128, .f32⟩) main_call1.v0 main_call1.v1 (cmpf .ogt),
    TRef.nullary main_call1.cst_0 (constant S_ .f32 0x00000000#32),
    TRef.unary main_call1.cst_0 main_call1.v2 (broadcastInDim S50000x128 ![] bcast_S_S50000x128),
    TRef.binary (.of main_v53 : TRef sig ⟨S50000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S50000x128 ![] bcast_S_S50000x128),
    TRef.ternary main_call1.v3 main_call1.call0.v1 (.of main_v53 : TRef sig ⟨S50000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S50000x128 ![] bcast_S_S50000x128),
    TRef.binary main_call1.v6 main_call1.v5 main_call1.v7 mulf,
    TRef.ternary main_call1.v1 (.of main_v53 : TRef sig ⟨S50000x128, .f32⟩) main_call1.v7 main_call1.call1.v0 select ]

/-- From `%55` to `%76`: the third layer from `%54` with `%arg7` and `%arg8`, no activation (`%72`, returned), and the
    read-out `%76 = %72 · %arg9 + %arg10`. -/
abbrev opsL3 : List (HloOp τ sig (Elt F)) :=
  [ StableHlo.unary main_v11 main_v55 (broadcastInDim S50000x128 ![0, 1] bcast_S50000x1_S50000x128_0_1 : (⟨S50000x1, .f32⟩ : BufTy).Contents (Elt F) → (⟨S50000x128, .f32⟩ : BufTy).Contents (Elt F)),
    StableHlo.binary main_v54 main_v55 main_v56 (mulf : (⟨S50000x128, .f32⟩ : BufTy).Contents (Elt F) → (⟨S50000x128, .f32⟩ : BufTy).Contents (Elt F) → (⟨S50000x128, .f32⟩ : BufTy).Contents (Elt F)),
    StableHlo.nullary main_c_11 (constantI S_ 32 0#32),
    StableHlo.unary main_c_11 main_v57 (broadcastInDim S800000 ![] bcast_S_S800000 : (⟨S_, .i32⟩ : BufTy).Contents (Elt F) → (⟨S800000, .i32⟩ : BufTy).Contents (Elt F)),
    StableHlo.binary main_arg1 main_v57 main_v58 (cmpi .slt : (⟨S800000, .i32⟩ : BufTy).Contents (Elt F) → (⟨S800000, .i32⟩ : BufTy).Contents (Elt F) → (⟨S800000, .i1⟩ : BufTy).Contents (Elt F)),
    StableHlo.nullary main_c_12 (constantI S_ 32 50000#32),
    StableHlo.unary main_c_12 main_v59 (broadcastInDim S800000 ![] bcast_S_S800000 : (⟨S_, .i32⟩ : BufTy).Contents (Elt F) → (⟨S800000, .i32⟩ : BufTy).Contents (Elt F)),
    StableHlo.binary main_arg1 main_v59 main_v60 (addi : (⟨S800000, .i32⟩ : BufTy).Contents (Elt F) → (⟨S800000, .i32⟩ : BufTy).Contents (Elt F) → (⟨S800000, .i32⟩ : BufTy).Contents (Elt F)),
    StableHlo.ternary main_v58 main_v60 main_arg1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v61 main_v62 (broadcastInDim S800000x1 ![0] bcast_S800000_S800000x1_0 : (⟨S800000, .i32⟩ : BufTy).Contents (Elt F) → (⟨S800000x1, .i32⟩ : BufTy).Contents (Elt F)),
    StableHlo.binary main_v56 main_v62 main_v63 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_13 (constant S_ .f32 0x00000000#32),
    StableHlo.unary main_cst_13 main_v64 (broadcastInDim S50000x128 ![] bcast_S_S50000x128 : (⟨S_, .f32⟩ : BufTy).Contents (Elt F) → (⟨S50000x128, .f32⟩ : BufTy).Contents (Elt F)),
    StableHlo.unary main_arg2 main_v65 (broadcastInDim S800000x1 ![0] bcast_S800000_S800000x1_0 : (⟨S800000, .i32⟩ : BufTy).Contents (Elt F) → (⟨S800000x1, .i32⟩ : BufTy).Contents (Elt F)),
    StableHlo.ternary main_v64 main_v65 main_v63 main_v66 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.unary main_v16 main_v67 (broadcastInDim S50000x128 ![0, 1] bcast_S50000x1_S50000x128_0_1 : (⟨S50000x1, .f32⟩ : BufTy).Contents (Elt F) → (⟨S50000x128, .f32⟩ : BufTy).Contents (Elt F)),
    StableHlo.binary main_v66 main_v67 main_v68 (mulf : (⟨S50000x128, .f32⟩ : BufTy).Contents (Elt F) → (⟨S50000x128, .f32⟩ : BufTy).Contents (Elt F) → (⟨S50000x128, .f32⟩ : BufTy).Contents (Elt F)),
    StableHlo.binary main_v68 main_arg7 main_v69 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.binary main_v72 main_arg9 main_v73 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg10 main_v74 (broadcastInDim S1x2 ![1] bcast_S2_S1x2_1 : (⟨S2, .f32⟩ : BufTy).Contents (Elt F) → (⟨S1x2, .f32⟩ : BufTy).Contents (Elt F)),
    StableHlo.unary main_v74 main_v75 (broadcastInDim S50000x2 ![0, 1] bcast_S1x2_S50000x2_0_1 : (⟨S1x2, .f32⟩ : BufTy).Contents (Elt F) → (⟨S50000x2, .f32⟩ : BufTy).Contents (Elt F)),
    StableHlo.binary main_v73 main_v75 main_v76 (addf : (⟨S50000x2, .f32⟩ : BufTy).Contents (Elt F) → (⟨S50000x2, .f32⟩ : BufTy).Contents (Elt F) → (⟨S50000x2, .f32⟩ : BufTy).Contents (Elt F)) ]

/-- @main's operations in order, the calls unfolded: 24 + 21 + 15 + 21 + 15 + 25. -/
abbrev ops : List (HloOp τ sig (Elt F)) := opsNorm ++ (opsL1 ++ (opsE1 ++ (opsL2 ++ (opsE2 ++ opsL3))))

/-! ## @main is that line -/

-- one hundred and twenty-one binds re-associated: the rewrite under the chain recurses once per statement
set_option maxRecDepth 8192 in
set_option maxHeartbeats 4000000 in
/-- @main is that straight line: its two windows, the functions' definitions at their calls and the records at their
    fields unfolded, both sides are the same chain of `hlo` steps once sequencing is re-associated (`bind_assoc`,
    `pure_bind`) and the six stretches are joined into one list (`List.cons_append`). -/
theorem main_eq (c : Dev nD) : main (F := F) c = seq ops := by
  simp only [main, main_part0, main_part1, fn_elu.body, fn_where.body, fn_where_0.body,
    ops, opsNorm, opsL1, opsE1, opsL2, opsE2, opsL3, List.cons_append, List.nil_append, seq, bind_assoc, pure_bind]

/-! ## The run's side conditions -/

set_option maxRecDepth 8192 in
theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append {α : Type _} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-! Every operation touches TensorCore references only: stretch by stretch, each operation's builder in order. -/

theorem opsNorm_sub : (opsNorm : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., unary_bufs_sub .., nullary_bufs_sub .., unary_bufs_sub .., binary_bufs_sub ..⟩

theorem opsL1_sub : (opsL1 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., binary_bufs_sub ..,
    unary_bufs_sub .., unary_bufs_sub .., binary_bufs_sub ..⟩

theorem opsE1_sub : (opsE1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem opsL2_sub : (opsL2 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., binary_bufs_sub ..,
    unary_bufs_sub .., unary_bufs_sub .., binary_bufs_sub ..⟩

theorem opsE2_sub : (opsE2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub ..⟩

theorem opsL3_sub : (opsL3 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., binary_bufs_sub .., binary_bufs_sub ..,
    unary_bufs_sub .., unary_bufs_sub .., binary_bufs_sub .., binary_bufs_sub .., unary_bufs_sub .., unary_bufs_sub ..,
    binary_bufs_sub ..⟩

theorem ops_sub : (ops : List (HloOp τ sig (Elt F))).Forall fun op => op.bufs ⊆ tcRefs τ sig :=
  forall_append opsNorm_sub (forall_append opsL1_sub (forall_append opsE1_sub (forall_append opsL2_sub
    (forall_append opsE2_sub opsL3_sub))))

/-! Every operation determines its results (none allocates a buffer at contents not chosen): by computation on each
    stretch's literal list, an element of the whole line being an element of one of the six. -/

set_option maxRecDepth 8192 in
theorem opsNorm_fresh : ∀ op ∈ (opsNorm : List (HloOp τ sig (Elt F))), op.fresh = ∅ := by
  intro _ h; (repeat (cases h with | head => rfl | tail _ h => ?_)); exact nomatch h

set_option maxRecDepth 8192 in
theorem opsL1_fresh : ∀ op ∈ (opsL1 : List (HloOp τ sig (Elt F))), op.fresh = ∅ := by
  intro _ h; (repeat (cases h with | head => rfl | tail _ h => ?_)); exact nomatch h

set_option maxRecDepth 8192 in
theorem opsE1_fresh : ∀ op ∈ (opsE1 : List (HloOp τ sig (Elt F))), op.fresh = ∅ := by
  intro _ h; (repeat (cases h with | head => rfl | tail _ h => ?_)); exact nomatch h

set_option maxRecDepth 8192 in
theorem opsL2_fresh : ∀ op ∈ (opsL2 : List (HloOp τ sig (Elt F))), op.fresh = ∅ := by
  intro _ h; (repeat (cases h with | head => rfl | tail _ h => ?_)); exact nomatch h

set_option maxRecDepth 8192 in
theorem opsE2_fresh : ∀ op ∈ (opsE2 : List (HloOp τ sig (Elt F))), op.fresh = ∅ := by
  intro _ h; (repeat (cases h with | head => rfl | tail _ h => ?_)); exact nomatch h

set_option maxRecDepth 8192 in
theorem opsL3_fresh : ∀ op ∈ (opsL3 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with h | h | h | h | h | h
  exacts [opsNorm_fresh op h, opsL1_fresh op h, opsE1_fresh op h, opsL2_fresh op h, opsE2_fresh op h, opsL3_fresh op h]

/-! ## The run -/

/-- At the compiled mesh, for any float values, from any memory with zero counters: every weakly fair execution of @main on
    the TensorCores terminates, and every final state has each TensorCore buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.HandRun

end
-- ==== Proof.RefSpec.lean ====
/-
  The reference program's stages as functions of whole arrays, spelt with its own operations.

  `preact`: one layer before its activation — the features scaled by the source factor, aggregated over the edges,
  scaled by the target factor, times the weights, plus the bias laid along the rows. `eluHost`: the exponential linear
  unit as the reference's outlined function computes it. `headHost`: the output head. `embedOf`: the three layers.
-/
import proofs.«120331_j635655160271_1_alg».proof.Proof.Gen.ReferenceIdeal
import proofs.«120331_j635655160271_1_alg».proof.Proof.Shared

noncomputable section

namespace Cert.ReferenceIdeal.HandValue

open Cert.ReferenceIdeal Cert.ReferenceIdeal.Gen Cert.Gcn Idealize.ShloMosaic

abbrev Mat : Type := FVec Ideal S128x128 .f32
abbrev Vec128 : Type := FVec Ideal S128 .f32
abbrev MatO : Type := FVec Ideal S128x2 .f32
abbrev Vec2 : Type := FVec Ideal S2 .f32
abbrev OutR : Type := FVec Ideal S50000x2 .f32

/-- A bias of 128 laid along the 50000 rows. -/
def biasRows (b : Vec128) : Feat :=
  broadcastInDim S50000x128 ![0, 1] bcast_S1x128_S50000x128_0_1 (broadcastInDim S1x128 ![1] bcast_S128_S1x128_1 b)

/-- The head's bias of 2 laid along the rows. -/
def biasRowsO (b : Vec2) : OutR :=
  broadcastInDim S50000x2 ![0, 1] bcast_S1x2_S50000x2_0_1 (broadcastInDim S1x2 ![1] bcast_S2_S1x2_1 b)

/-- One layer before its activation. -/
def preact (src dst : Edges) (h ns nd : Feat) (w : Mat) (b : Vec128) : Feat :=
  addf (F := Ideal) (Host.dotGeneral (F := Ideal) dot_S50000x128_S128x128_S50000x128_1_0_0_1_n_n none
    (mulf (F := Ideal) (aggregate src dst (mulf (F := Ideal) h ns)) nd) w) (biasRows b)

/-- The exponential linear unit as the outlined function computes it, its two inner selections inlined. -/
def eluHost (y : Feat) : Feat :=
  select (cmpf (F := Ideal) .ogt y (broadcastInDim S50000x128 ![] bcast_S_S50000x128 (constant (F := Ideal) S_ .f32 0x00000000#32))) y
    (mulf (F := Ideal) (broadcastInDim S50000x128 ![] bcast_S_S50000x128 (constant (F := Ideal) S_ .f32 0x3F800000#32))
      (Host.expm1 (F := Ideal) (select (cmpf (F := Ideal) .ogt y (broadcastInDim S50000x128 ![] bcast_S_S50000x128 (constant (F := Ideal) S_ .f32 0x00000000#32)))
        (broadcastInDim S50000x128 ![] bcast_S_S50000x128 (id (constant (F := Ideal) S_ .f32 0x00000000#32))) y)))

/-- The output head. -/
def headHost (e : Feat) (w : MatO) (b : Vec2) : OutR :=
  addf (F := Ideal) (Host.dotGeneral (F := Ideal) dot_S50000x128_S128x2_S50000x2_1_0_0_1_n_n none e w) (biasRowsO b)

/-- The embedding: three layers, the unit after the first two. -/
def embedOf (x : Feat) (src dst : Edges) (w1 : Mat) (b1 : Vec128) (w2 : Mat) (b2 : Vec128) (w3 : Mat) (b3 : Vec128) : Feat :=
  preact src dst
    (eluHost (preact src dst (eluHost (preact src dst x (wide (degFactor src)) (wide (degFactor dst)) w1 b1))
      (wide (degFactor src)) (wide (degFactor dst)) w2 b2))
    (wide (degFactor src)) (wide (degFactor dst)) w3 b3

end Cert.ReferenceIdeal.HandValue

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.RefValue.lean ====
/-
  The reference's run read back: its two results as one composed function of the argument arrays, at the ideal
  instance (a float an extended real).

  A layer's pre-activation `preact src dst h ns nd w b`: the rows of `h` scaled by `ns`, gathered at each edge's source
  and scatter-added at its destination (`aggregate`), scaled by `nd`, times the weights `w` plus the bias `b` repeated
  down the rows. `eluHost`: `y` where `y > 0`, `exp · - 1` of (zero where `y > 0`, `y` elsewhere) times one
  elsewhere, operation for operation as @elu and its two @_where calls compute it. `embedOf`: three layers over the
  same edge lists and the same two degree factors (`wide (degFactor src)`, `wide (degFactor dst)`), `eluHost` after the
  first and the second; `headHost`: the read-out, a last product and bias.

  The line is read a stretch at a time (`HandRun.ops` is six stretches): from ARBITRARY contents, each stretch's result
  buffer is one of these functions of the buffers the stretch reads (by computation: the fold unrolled, each
  operation's result read at its own buffer), and a buffer the stretch does not write keeps its contents. What the
  later stretches need of the earlier ones — the eleven arguments unchanged, `%11` and `%16` the degree factors of the
  two edge lists — is carried along as one invariant (`Carried`), so no step ever compares terms longer than one
  stretch.
-/
import proofs.«120331_j635655160271_1_alg».proof.Proof.RefRun
import proofs.«120331_j635655160271_1_alg».proof.Proof.Shared
import proofs.«120331_j635655160271_1_alg».proof.Proof.RefSpec
import proofs.«120331_j635655160271_1_alg».proof.Proof.LibHostStretches

noncomputable section

namespace Cert.ReferenceIdeal.HandValue

open Cert.ReferenceIdeal Cert.ReferenceIdeal.Gen Cert.ReferenceIdeal.HandRun Cert.Gcn Idealize.ShloMosaic Idealize.ShloMosaic.TcCoe Idealize.SL.Sem Idealize.ShloMosaic.StableHlo

/-! ## Each stretch read from arbitrary contents

The fold unrolled, each operation's result rewritten at its own buffer to its function's value and passed over at any
other (the references told apart by `decide`); what is left is the stretch's operations composed, which is the named
function once its definition is opened: the same operations in the same order, `rfl`. The scatter-add, the gather, the
power and `exp · - 1` are kept folded meanwhile: the equation never looks inside them. -/

attribute [local irreducible] Host.scatterAdd Host.gather Host.powf Host.expm1 in
set_option maxRecDepth 8192 in
/-- `opsNorm` from any contents: `%11` is the degree factor of the edges' sources. -/
theorem norm_v11 (V : Valuation τ sig (Elt Ideal)) :
    after (opsNorm (F := Ideal)) V (Proc.devRef .tc main_v11) = degFactor (V (Proc.devRef .tc main_arg1)) := by
  after_results_simp
  unfold degFactor
  rfl

attribute [local irreducible] Host.scatterAdd Host.gather Host.powf Host.expm1 in
set_option maxRecDepth 8192 in
/-- `opsNorm` from any contents: `%16` is the degree factor of the edges' destinations. -/
theorem norm_v16 (V : Valuation τ sig (Elt Ideal)) :
    after (opsNorm (F := Ideal)) V (Proc.devRef .tc main_v16) = degFactor (V (Proc.devRef .tc main_arg2)) := by
  after_results_simp
  unfold degFactor
  rfl

attribute [local irreducible] Host.scatterAdd Host.gather Host.powf Host.expm1 in
set_option maxRecDepth 8192 in
theorem L1_v34_at (V : Valuation τ sig (Elt Ideal)) :
    after (opsL1 (F := Ideal)) V (Proc.devRef .tc main_v34)
      = preact (V (Proc.devRef .tc main_arg1)) (V (Proc.devRef .tc main_arg2)) (V (Proc.devRef .tc main_arg0))
          (wide (V (Proc.devRef .tc main_v11))) (wide (V (Proc.devRef .tc main_v16))) (V (Proc.devRef .tc main_arg3)) (V (Proc.devRef .tc main_arg4)) := by
  after_results_simp
  unfold preact aggregate wide biasRows
  rfl

/-- `opsL1` from any contents: `%34` is the layer's pre-activation of what it finds at the edge lists, at its input `%arg0`, at the two
    degree factors `%11` and `%16` and at its weights and bias. -/
theorem L1_v34 (W : Valuation τ sig (Elt Ideal)) {src dst : Edges} {h : Feat} {ns nd : Col} {w : Mat} {b : Vec128}
    (h1 : W (Proc.devRef .tc main_arg1) = src) (h2 : W (Proc.devRef .tc main_arg2) = dst) (h0 : W (Proc.devRef .tc main_arg0) = h)
    (hs : W (Proc.devRef .tc main_v11) = ns) (hd : W (Proc.devRef .tc main_v16) = nd)
    (hw : W (Proc.devRef .tc main_arg3) = w) (hb : W (Proc.devRef .tc main_arg4) = b) :
    after (opsL1 (F := Ideal)) W (Proc.devRef .tc main_v34) = preact src dst h (wide ns) (wide nd) w b := by
  subst h1 h2 h0 hs hd hw hb
  exact L1_v34_at W

attribute [local irreducible] Host.scatterAdd Host.gather Host.powf Host.expm1 in
set_option maxRecDepth 8192 in
/-- `opsE1` from any contents: `%35` is `eluHost` of what it finds at `%34` (a value written through a typed reference and
    read back at its own type is the value). -/
theorem E1_v35_at (V : Valuation τ sig (Elt Ideal)) :
    after (opsE1 (F := Ideal)) V (Proc.devRef .tc main_v35) = eluHost (V (Proc.devRef .tc main_v34)) := by
  simp only [after_cons, after_nil]
  rfl

theorem E1_v35 (W : Valuation τ sig (Elt Ideal)) {y : Feat} (hy : W (Proc.devRef .tc main_v34) = y) :
    after (opsE1 (F := Ideal)) W (Proc.devRef .tc main_v35) = eluHost y := by
  subst hy
  exact E1_v35_at W

attribute [local irreducible] Host.scatterAdd Host.gather Host.powf Host.expm1 in
set_option maxRecDepth 8192 in
theorem L2_v53_at (V : Valuation τ sig (Elt Ideal)) :
    after (opsL2 (F := Ideal)) V (Proc.devRef .tc main_v53)
      = preact (V (Proc.devRef .tc main_arg1)) (V (Proc.devRef .tc main_arg2)) (V (Proc.devRef .tc main_v35))
          (wide (V (Proc.devRef .tc main_v11))) (wide (V (Proc.devRef .tc main_v16))) (V (Proc.devRef .tc main_arg5)) (V (Proc.devRef .tc main_arg6)) := by
  after_results_simp
  unfold preact aggregate wide biasRows
  rfl

/-- `opsL2` from any contents: `%53` is the layer's pre-activation of what it finds at the edge lists, at its input `%35`, at the two
    degree factors `%11` and `%16` and at its weights and bias. -/
theorem L2_v53 (W : Valuation τ sig (Elt Ideal)) {src dst : Edges} {h : Feat} {ns nd : Col} {w : Mat} {b : Vec128}
    (h1 : W (Proc.devRef .tc main_arg1) = src) (h2 : W (Proc.devRef .tc main_arg2) = dst) (h0 : W (Proc.devRef .tc main_v35) = h)
    (hs : W (Proc.devRef .tc main_v11) = ns) (hd : W (Proc.devRef .tc main_v16) = nd)
    (hw : W (Proc.devRef .tc main_arg5) = w) (hb : W (Proc.devRef .tc main_arg6) = b) :
    after (opsL2 (F := Ideal)) W (Proc.devRef .tc main_v53) = preact src dst h (wide ns) (wide nd) w b := by
  subst h1 h2 h0 hs hd hw hb
  exact L2_v53_at W

attribute [local irreducible] Host.scatterAdd Host.gather Host.powf Host.expm1 in
set_option maxRecDepth 8192 in
/-- `opsE2` from any contents: `%54` is `eluHost` of what it finds at `%53` (a value written through a typed reference and
    read back at its own type is the value). -/
theorem E2_v54_at (V : Valuation τ sig (Elt Ideal)) :
    after (opsE2 (F := Ideal)) V (Proc.devRef .tc main_v54) = eluHost (V (Proc.devRef .tc main_v53)) := by
  simp only [after_cons, after_nil]
  rfl

theorem E2_v54 (W : Valuation τ sig (Elt Ideal)) {y : Feat} (hy : W (Proc.devRef .tc main_v53) = y) :
    after (opsE2 (F := Ideal)) W (Proc.devRef .tc main_v54) = eluHost y := by
  subst hy
  exact E2_v54_at W

attribute [local irreducible] Host.scatterAdd Host.gather Host.powf Host.expm1 in
set_option maxRecDepth 8192 in
theorem L3_v72_at (V : Valuation τ sig (Elt Ideal)) :
    after (opsL3 (F := Ideal)) V (Proc.devRef .tc main_v72)
      = preact (V (Proc.devRef .tc main_arg1)) (V (Proc.devRef .tc main_arg2)) (V (Proc.devRef .tc main_v54))
          (wide (V (Proc.devRef .tc main_v11))) (wide (V (Proc.devRef .tc main_v16))) (V (Proc.devRef .tc main_arg7)) (V (Proc.devRef .tc main_arg8)) := by
  after_results_simp
  unfold preact aggregate wide biasRows
  rfl

/-- `opsL3` from any contents: `%72` is the layer's pre-activation of what it finds at the edge lists, at its input `%54`, at the two
    degree factors `%11` and `%16` and at its weights and bias. -/
theorem L3_v72 (W : Valuation τ sig (Elt Ideal)) {src dst : Edges} {h : Feat} {ns nd : Col} {w : Mat} {b : Vec128}
    (h1 : W (Proc.devRef .tc main_arg1) = src) (h2 : W (Proc.devRef .tc main_arg2) = dst) (h0 : W (Proc.devRef .tc main_v54) = h)
    (hs : W (Proc.devRef .tc main_v11) = ns) (hd : W (Proc.devRef .tc main_v16) = nd)
    (hw : W (Proc.devRef .tc main_arg7) = w) (hb : W (Proc.devRef .tc main_arg8) = b) :
    after (opsL3 (F := Ideal)) W (Proc.devRef .tc main_v72) = preact src dst h (wide ns) (wide nd) w b := by
  subst h1 h2 h0 hs hd hw hb
  exact L3_v72_at W

attribute [local irreducible] Host.scatterAdd Host.gather Host.powf Host.expm1 in
set_option maxRecDepth 8192 in
theorem L3_v76_at (V : Valuation τ sig (Elt Ideal)) :
    after (opsL3 (F := Ideal)) V (Proc.devRef .tc main_v76)
      = headHost (preact (V (Proc.devRef .tc main_arg1)) (V (Proc.devRef .tc main_arg2)) (V (Proc.devRef .tc main_v54))
          (wide (V (Proc.devRef .tc main_v11))) (wide (V (Proc.devRef .tc main_v16))) (V (Proc.devRef .tc main_arg7)) (V (Proc.devRef .tc main_arg8)))
          (V (Proc.devRef .tc main_arg9)) (V (Proc.devRef .tc main_arg10)) := by
  after_results_simp
  unfold headHost biasRowsO preact aggregate wide biasRows
  rfl

/-- `opsL3` from any contents: `%76` is the read-out of the third layer's pre-activation. -/
theorem L3_v76 (W : Valuation τ sig (Elt Ideal)) {src dst : Edges} {h : Feat} {ns nd : Col} {w : Mat} {b : Vec128} {wo : MatO} {bo : Vec2}
    (h1 : W (Proc.devRef .tc main_arg1) = src) (h2 : W (Proc.devRef .tc main_arg2) = dst) (h0 : W (Proc.devRef .tc main_v54) = h)
    (hs : W (Proc.devRef .tc main_v11) = ns) (hd : W (Proc.devRef .tc main_v16) = nd)
    (hw : W (Proc.devRef .tc main_arg7) = w) (hb : W (Proc.devRef .tc main_arg8) = b)
    (hwo : W (Proc.devRef .tc main_arg9) = wo) (hbo : W (Proc.devRef .tc main_arg10) = bo) :
    after (opsL3 (F := Ideal)) W (Proc.devRef .tc main_v76) = headHost (preact src dst h (wide ns) (wide nd) w b) wo bo := by
  subst h1 h2 h0 hs hd hw hb hwo hbo
  exact L3_v76_at W

/-! ## What each stretch leaves alone

A stretch writes exactly its operations' result buffers (`opsX_W`, each builder writing its result only), so any other
reference keeps its contents through it (`after_of_writes_sub`). -/

/-- One operation's written buffer is in the list: its builder writes its result buffer and nothing else. -/
local macro "writes_one" : tactic =>
  `(tactic| (simp only [nullary_writes, unary_writes, binary_writes, ternary_writes, Finset.singleton_subset_iff, List.mem_toFinset]
             exact List.mem_map_of_mem (by decide)))

/-- The buffers `opsNorm` writes, in order. -/
abbrev opsNorm_W : List (Ref sig .tc) := [main_cst, main_v0, main_cst_0, main_v1, main_v2, main_v3, main_cst_1, main_v4, main_v5, main_v6, main_cst_2, main_v7, main_v8, main_v9, main_cst_3, main_v10, main_v11, main_cst_4, main_v12, main_v13, main_v14, main_cst_5, main_v15, main_v16]
set_option maxRecDepth 8192 in
theorem opsNorm_writes : (opsNorm : List (HloOp τ sig (Elt Ideal))).Forall fun op =>
    op.writes ⊆ (opsNorm_W.map (Proc.devRef (τ := τ) .tc)).toFinset := by
  simp only [List.Forall]
  and_intros <;> writes_one

/-- The buffers `opsL1` writes, in order. -/
abbrev opsL1_W : List (Ref sig .tc) := [main_v17, main_v18, main_c, main_v19, main_v20, main_c_6, main_v21, main_v22, main_v23, main_v24, main_v25, main_cst_7, main_v26, main_v27, main_v28, main_v29, main_v30, main_v31, main_v32, main_v33, main_v34]
set_option maxRecDepth 8192 in
theorem opsL1_writes : (opsL1 : List (HloOp τ sig (Elt Ideal))).Forall fun op =>
    op.writes ⊆ (opsL1_W.map (Proc.devRef (τ := τ) .tc)).toFinset := by
  simp only [List.Forall]
  and_intros <;> writes_one

/-- The buffers `opsE1` writes, in order. -/
abbrev opsE1_W : List (Ref sig .tc) := [main_call0_cst, main_call0_v0, main_call0_v1, main_call0_cst_0, main_call0_v2, main_call0_v3, main_call0_cst_1, main_call0_call0_v0, main_call0_call0_v1, main_call0_v4, main_call0_v5, main_call0_cst_2, main_call0_v6, main_call0_v7, main_v35]
set_option maxRecDepth 8192 in
theorem opsE1_writes : (opsE1 : List (HloOp τ sig (Elt Ideal))).Forall fun op =>
    op.writes ⊆ (opsE1_W.map (Proc.devRef (τ := τ) .tc)).toFinset := by
  simp only [List.Forall]
  and_intros <;> writes_one

/-- The buffers `opsL2` writes, in order. -/
abbrev opsL2_W : List (Ref sig .tc) := [main_v36, main_v37, main_c_8, main_v38, main_v39, main_c_9, main_v40, main_v41, main_v42, main_v43, main_v44, main_cst_10, main_v45, main_v46, main_v47, main_v48, main_v49, main_v50, main_v51, main_v52, main_v53]
set_option maxRecDepth 8192 in
theorem opsL2_writes : (opsL2 : List (HloOp τ sig (Elt Ideal))).Forall fun op =>
    op.writes ⊆ (opsL2_W.map (Proc.devRef (τ := τ) .tc)).toFinset := by
  simp only [List.Forall]
  and_intros <;> writes_one

/-- The buffers `opsE2` writes, in order. -/
abbrev opsE2_W : List (Ref sig .tc) := [main_call1_cst, main_call1_v0, main_call1_v1, main_call1_cst_0, main_call1_v2, main_call1_v3, main_call1_cst_1, main_call1_call0_v0, main_call1_call0_v1, main_call1_v4, main_call1_v5, main_call1_cst_2, main_call1_v6, main_call1_v7, main_v54]
set_option maxRecDepth 8192 in
theorem opsE2_writes : (opsE2 : List (HloOp τ sig (Elt Ideal))).Forall fun op =>
    op.writes ⊆ (opsE2_W.map (Proc.devRef (τ := τ) .tc)).toFinset := by
  simp only [List.Forall]
  and_intros <;> writes_one

/-- The buffers `opsL3` writes, in order. -/
abbrev opsL3_W : List (Ref sig .tc) := [main_v55, main_v56, main_c_11, main_v57, main_v58, main_c_12, main_v59, main_v60, main_v61, main_v62, main_v63, main_cst_13, main_v64, main_v65, main_v66, main_v67, main_v68, main_v69, main_v70, main_v71, main_v72, main_v73, main_v74, main_v75, main_v76]
set_option maxRecDepth 8192 in
theorem opsL3_writes : (opsL3 : List (HloOp τ sig (Elt Ideal))).Forall fun op =>
    op.writes ⊆ (opsL3_W.map (Proc.devRef (τ := τ) .tc)).toFinset := by
  simp only [List.Forall]
  and_intros <;> writes_one

/-! ## The invariant carried through the stretches -/

/-- @main's eleven arguments. -/
abbrev argRefs : List (Ref sig .tc) :=
  [main_arg0, main_arg1, main_arg2, main_arg3, main_arg4, main_arg5, main_arg6, main_arg7, main_arg8, main_arg9, main_arg10]

/-- Contents `W` reached from `V` past the first stretch: every argument as in `V`, `%11` and `%16` the degree factors of
    `V`'s two edge lists. -/
structure Carried (W V : Valuation τ sig (Elt Ideal)) : Prop where
  args : ∀ r ∈ argRefs, W (Proc.devRef .tc r) = V (Proc.devRef .tc r)
  ns : W (Proc.devRef .tc main_v11) = degFactor (V (Proc.devRef .tc main_arg1))
  nd : W (Proc.devRef .tc main_v16) = degFactor (V (Proc.devRef .tc main_arg2))

/-- A stretch that writes none of the thirteen buffers keeps the invariant. -/
theorem Carried.step {W V : Valuation τ sig (Elt Ideal)} (h : Carried W V) (l : List (HloOp τ sig (Elt Ideal)))
    (Wr : List (Ref sig .tc)) (hW : l.Forall fun op => op.writes ⊆ (Wr.map (Proc.devRef (τ := τ) .tc)).toFinset)
    (hargs : ∀ r ∈ argRefs, r ∉ Wr) (h11 : main_v11 ∉ Wr) (h16 : main_v16 ∉ Wr) : Carried (after l W) V :=
  ⟨fun r hr => (after_of_writes_sub l W hW (hargs r hr)).trans (h.args r hr),
    (after_of_writes_sub l W hW h11).trans h.ns, (after_of_writes_sub l W hW h16).trans h.nd⟩

/-- The first stretch establishes it: it writes no argument, and `%11`, `%16` are read above. -/
theorem carried_norm (V : Valuation τ sig (Elt Ideal)) : Carried (after (opsNorm (F := Ideal)) V) V :=
  ⟨fun r hr => after_of_writes_sub opsNorm V opsNorm_writes ((by decide : ∀ r ∈ argRefs, r ∉ opsNorm_W) r hr),
    norm_v11 V, norm_v16 V⟩

/-! ## The whole line -/

/-- The line is its six stretches run in turn. -/
theorem after_ops (V : Valuation τ sig (Elt Ideal)) :
    after (ops (F := Ideal)) V
      = after opsL3 (after opsE2 (after opsL2 (after opsE1 (after opsL1 (after opsNorm V))))) := by
  unfold ops
  simp only [Cert.HostLine.after_append]

set_option maxRecDepth 8192 in
/-- From any contents `V` the line leaves the read-out at `%76`, the embedding at `%72`, both as the composed function of
    `V`'s arguments, and every argument as it was: each stretch's result read at what the invariant says the stretch
    finds, from the first stretch to the last. -/
theorem results (V : Valuation τ sig (Elt Ideal)) :
    after (ops (F := Ideal)) V (Proc.devRef .tc main_v76) = headHost (embedOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg10))
    ∧ after (ops (F := Ideal)) V (Proc.devRef .tc main_v72) = embedOf (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
    ∧ ∀ r ∈ argRefs, after (ops (F := Ideal)) V (Proc.devRef .tc r) = V (Proc.devRef .tc r) := by
  have c1 := carried_norm V
  have e1 := L1_v34 _ (c1.args main_arg1 (by decide)) (c1.args main_arg2 (by decide)) (c1.args main_arg0 (by decide)) c1.ns c1.nd (c1.args main_arg3 (by decide)) (c1.args main_arg4 (by decide))
  have c2 := c1.step opsL1 opsL1_W opsL1_writes (by decide) (by decide) (by decide)
  have e2 := E1_v35 _ e1
  have c3 := c2.step opsE1 opsE1_W opsE1_writes (by decide) (by decide) (by decide)
  have e3 := L2_v53 _ (c3.args main_arg1 (by decide)) (c3.args main_arg2 (by decide)) e2 c3.ns c3.nd (c3.args main_arg5 (by decide)) (c3.args main_arg6 (by decide))
  have c4 := c3.step opsL2 opsL2_W opsL2_writes (by decide) (by decide) (by decide)
  have e4 := E2_v54 _ e3
  have c5 := c4.step opsE2 opsE2_W opsE2_writes (by decide) (by decide) (by decide)
  have e5 := L3_v72 _ (c5.args main_arg1 (by decide)) (c5.args main_arg2 (by decide)) e4 c5.ns c5.nd (c5.args main_arg7 (by decide)) (c5.args main_arg8 (by decide))
  have e6 := L3_v76 _ (c5.args main_arg1 (by decide)) (c5.args main_arg2 (by decide)) e4 c5.ns c5.nd (c5.args main_arg7 (by decide)) (c5.args main_arg8 (by decide)) (c5.args main_arg9 (by decide)) (c5.args main_arg10 (by decide))
  have c6 := c5.step opsL3 opsL3_W opsL3_writes (by decide) (by decide) (by decide)
  rw [after_ops]
  exact ⟨e6, e5, c6.args⟩

/-! ## The run -/

/-- On every device, from any memory with zero counters: every weakly fair execution of @main terminates with the
    read-out at `%76` and the embedding at `%72`, each the composed function of the arguments' launch contents, and the
    eleven arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v76)
          = headHost (embedOf (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8)))
            (m ((c.tc : Thread nD τ).loc main_arg9)) (m ((c.tc : Thread nD τ).loc main_arg10))
      ∧ r.2.mem ((c.tc : Thread nD τ).loc main_v72)
          = embedOf (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
      have R := results (launchContents m c)
      ⟨(h c main_v76).trans R.1, (h c main_v72).trans R.2.1,
        (h c main_arg0).trans (R.2.2 main_arg0 (by decide)),
        (h c main_arg1).trans (R.2.2 main_arg1 (by decide)),
        (h c main_arg2).trans (R.2.2 main_arg2 (by decide)),
        (h c main_arg3).trans (R.2.2 main_arg3 (by decide)),
        (h c main_arg4).trans (R.2.2 main_arg4 (by decide)),
        (h c main_arg5).trans (R.2.2 main_arg5 (by decide)),
        (h c main_arg6).trans (R.2.2 main_arg6 (by decide)),
        (h c main_arg7).trans (R.2.2 main_arg7 (by decide)),
        (h c main_arg8).trans (R.2.2 main_arg8 (by decide)),
        (h c main_arg9).trans (R.2.2 main_arg9 (by decide)),
        (h c main_arg10).trans (R.2.2 main_arg10 (by decide))⟩)
    (run_main m ρ)

end Cert.ReferenceIdeal.HandValue

end
-- ==== Proof.LibHostColumn.lean ====
/-
  A vector repeated into a matrix by the host's two broadcasts.

  The host repeats a vector along a new axis in two steps: it first gives the vector a unit axis (`broadcast_in_dim`
  of [n] into [n, 1] along dimension 0, or of [b] into [1, b] along dimension 1), then repeats the unit axis
  (`broadcast_in_dim` of [n, 1] or [1, b] into [n, b] along dimensions 0 and 1). Read at (p, k) the result is the
  vector at the coordinate it was laid along: the row `p` for a column, the column `k` for a row. A size-one axis
  of the operand is read at 0 whatever the result's coordinate, which is why the case of a vector of one entry needs
  no separate statement.
-/
import Idealize.ShloMosaic.Lib.Pipeline.Value
import Idealize.ShloMosaic.Lib.ValueIdx

namespace Idealize.ShloMosaic.HostColumn

open Idealize.ShloMosaic Idealize.ShloMosaic.ValueIdx

variable {α : Type}

/-- A vector of `n` entries kept as an [n, 1] column and that column repeated to [n, b], both by the host's
    `broadcast_in_dim`, reads the vector at the row. -/
theorem column_apply {n b : Nat} (x : (⟨1, ![n]⟩ : Shape).Idx → α)
    (b1 : (⟨1, ![n]⟩ : Shape).BroadcastsInDim ⟨2, ![n, 1]⟩ ![0])
    (b2 : (⟨2, ![n, 1]⟩ : Shape).BroadcastsInDim ⟨2, ![n, b]⟩ ![0, 1]) (p : Fin n) (k : Fin b) :
    broadcastInDim ⟨2, ![n, b]⟩ ![0, 1] b2 (broadcastInDim ⟨2, ![n, 1]⟩ ![0] b1 x) (ix2 p k) = x (ix1 p) := by
  refine (broadcastInDim_apply _ b2 _ (ix2 p k) (ix2 p (0 : Fin 1)) fun a => ?_).trans
    (broadcastInDim_apply _ b1 x (ix2 p (0 : Fin 1)) (ix1 p) fun a => ?_)
  · match a with
    | ⟨0, _⟩ =>
      show p.val = if n = 1 then 0 else p.val
      split
      · have := p.isLt; omega
      · rfl
    | ⟨1, _⟩ => rfl
  · match a with
    | ⟨0, _⟩ =>
      show p.val = if n = 1 then 0 else p.val
      split
      · have := p.isLt; omega
      · rfl

/-- A vector of `b` entries given a leading unit axis and repeated down `n` rows, both by the host's
    `broadcast_in_dim`, reads the vector at the column. -/
theorem row_apply {n b : Nat} (x : (⟨1, ![b]⟩ : Shape).Idx → α)
    (b3 : (⟨1, ![b]⟩ : Shape).BroadcastsInDim ⟨2, ![1, b]⟩ ![1])
    (b4 : (⟨2, ![1, b]⟩ : Shape).BroadcastsInDim ⟨2, ![n, b]⟩ ![0, 1]) (p : Fin n) (j : Fin b) :
    broadcastInDim ⟨2, ![n, b]⟩ ![0, 1] b4 (broadcastInDim ⟨2, ![1, b]⟩ ![1] b3 x) (ix2 p j) = x (ix1 j) := by
  refine (broadcastInDim_apply _ b4 _ (ix2 p j) (ix2 (0 : Fin 1) j) fun a => ?_).trans
    (broadcastInDim_apply _ b3 x (ix2 (0 : Fin 1) j) (ix1 j) fun a => ?_)
  · match a with
    | ⟨0, _⟩ => rfl
    | ⟨1, _⟩ =>
      show j.val = if b = 1 then 0 else j.val
      split
      · have := j.isLt; omega
      · rfl
  · match a with
    | ⟨0, _⟩ =>
      show j.val = if b = 1 then 0 else j.val
      split
      · have := j.isLt; omega
      · rfl

end Idealize.ShloMosaic.HostColumn
-- ==== Proof.Bridge.lean ====
/-
  The two programs compute one function.

  Entry by entry on the extended reals: the reference's product of a whole array with the weights is the sum over
  the contraction index, and its bias laid along the rows reads the bias at the column, so its layer before the
  activation is `dense` of the aggregated features; its exponential linear unit is the kernel's (`elu_forms`); and it
  scales by the source factor at the start of the next layer where the kernel program does so at the end of the
  previous one — the same product `elu (…) · ns`. No law used here needs the entries to be finite.
-/
import proofs.«120331_j635655160271_1_alg».proof.Proof.KSpec
import proofs.«120331_j635655160271_1_alg».proof.Proof.RefSpec
import proofs.«120331_j635655160271_1_alg».proof.Proof.LibHostColumn

set_option pp.maxSteps 5000
set_option pp.deepTerms false

noncomputable section

namespace Cert.Gcn

open Cert.ReferenceIdeal.HandValue Cert.Dense Idealize.ShloMosaic Idealize.ShloMosaic.ValueIdx

/-- The reference's layer product is rows times columns. -/
theorem rowsCols_ref : RowsCols Cert.ReferenceIdeal.dot_S50000x128_S128x128_S50000x128_1_0_0_1_n_n :=
  ⟨rfl, rfl, fun _ _ => rfl, fun _ _ => rfl, fun _ _ => rfl, fun _ _ => rfl⟩

/-- So is its head's. -/
theorem rowsCols_refO : RowsCols Cert.ReferenceIdeal.dot_S50000x128_S128x2_S50000x2_1_0_0_1_n_n :=
  ⟨rfl, rfl, fun _ _ => rfl, fun _ _ => rfl, fun _ _ => rfl, fun _ _ => rfl⟩

/-- The reference's unit at an entry is the unit of the entry. -/
theorem eluHost_apply (y : Feat) (i : (⟨2, ![50000, 128]⟩ : Shape).Idx) : eluHost y i = elu (y i) :=
  elu_forms (y i)

/-- The reference's layer before its activation is `dense` of the aggregated, scaled features. -/
theorem preact_eq (src dst : Edges) (h ns nd : Feat) (w : Mat) (b : Vec128) :
    preact src dst h ns nd w b
      = dense (M := 50000) (K := 128) (N := 128) (aggregate src dst (mulf (F := Ideal) h ns)) nd w b := by
  funext i
  obtain ⟨r, j, rfl⟩ : ∃ (r : Fin 50000) (j : Fin 128), i = ix2 r j := ⟨i 0, i 1, eq_ix2 i⟩
  unfold preact dense biasRows
  refine (addf_apply _ _ _).trans (congrArg₂ (· + ·) ?_ ?_)
  · exact dotGeneral_apply rowsCols_ref none _ w (ix2 r j)
  · exact HostColumn.row_apply b _ _ r j

/-- A hidden layer: the reference's unit of its layer, scaled by the source factor as its next layer begins, is the
    kernel's `act`. -/
theorem act_bridge (src dst : Edges) (h ns nd ns' : Feat) (w : Mat) (b : Vec128) :
    mulf (F := Ideal) (eluHost (preact src dst h ns nd w b)) ns'
      = act (M := 50000) (K := 128) (N := 128) (aggregate src dst (mulf (F := Ideal) h ns)) nd ns' w b := by
  funext i
  refine (mulf_apply _ _ i).trans ?_
  unfold act
  rw [eluHost_apply, preact_eq]

/-- The head. -/
theorem head_bridge (e : Feat) (w : MatO) (b : Vec2) : headHost e w b = headK e w b := by
  funext i
  obtain ⟨r, o, rfl⟩ : ∃ (r : Fin 50000) (o : Fin 2), i = ix2 r o := ⟨i 0, i 1, eq_ix2 i⟩
  unfold headHost headK head biasRowsO
  refine (addf_apply _ _ _).trans (congrArg₂ (· + ·) ?_ ?_)
  · exact dotGeneral_apply rowsCols_refO none e w (ix2 r o)
  · exact HostColumn.row_apply b _ _ r o

/-- The embedding. -/
theorem embed_bridge (x : Feat) (src dst : Edges) (w1 : Mat) (b1 : Vec128) (w2 : Mat) (b2 : Vec128) (w3 : Mat) (b3 : Vec128) :
    embedOf x src dst w1 b1 w2 b2 w3 b3 = embedK x src dst w1 b1 w2 b2 w3 b3 := by
  unfold embedOf embedK
  rw [preact_eq, act_bridge, act_bridge]

end Cert.Gcn

end
-- ==== Proof.lean ====
/-
  A three-layer graph convolution with a linear head: the kernel program against its reference, on the extended reals.

  Both programs count every node's out- and in-degree over the 800000 edges, turn the counts (at least one) into the
  factors `ns = deg_out^(−1/2)` and `nd = deg_in^(−1/2)`, and apply three layers to the 50000 × 128 features: scale the
  rows by `ns`, gather each edge's source row and add it at the edge's target, scale the rows by `nd`, multiply by the
  layer's 128 × 128 weights, add its bias; the exponential linear unit follows the first two layers; a 128 × 2 head is
  applied to the third layer's result, and both the head's result and that embedding are returned.

  The reference does all of it with host operations. The kernel program keeps the degree counts, the gather and the
  scatter-add on the host and runs the dense part of each layer as a launch over 25 blocks of 2000 rows: the first two
  launches compute `elu ((m · nd) W + b) · ns` — the next layer's scaling by `ns` moved to the end of the previous one —
  and the last computes the embedding `(m · nd) W₃ + b₃` and its head. Rounding the operands of the matrix unit to a
  narrower format is no change on the extended reals, a product accumulated into zero is the plain sum over the
  contraction index, and the unit written `exp y − 1` equals the one written `1 · expm1 y`. A layer's row depends on the
  same row of its inputs only, so 25 row blocks computed separately are the layer of the whole array. None of these
  steps needs an entry to be finite: the precondition is never opened.

  The three frames: the two kernel programs' are their launches' and host stretches' runs chained; the reference's
  is its run with the results dropped. Nothing was rewritten between the kernel program and its idealization.
-/
import proofs.«120331_j635655160271_1_alg».proof.Defs
import proofs.«120331_j635655160271_1_alg».proof.Proof.Gen.Kernel
import proofs.«120331_j635655160271_1_alg».proof.Proof.Gen.Kernel.Frame
import proofs.«120331_j635655160271_1_alg».proof.Proof.Gen.KernelIdeal
import proofs.«120331_j635655160271_1_alg».proof.Proof.Gen.KernelIdeal.Frame
import proofs.«120331_j635655160271_1_alg».proof.Proof.Gen.ReferenceIdeal
import proofs.«120331_j635655160271_1_alg».proof.Proof.Gen.Pre_finite_inputs
import proofs.«120331_j635655160271_1_alg».proof.Proof.KValue
import proofs.«120331_j635655160271_1_alg».proof.Proof.RefValue
import proofs.«120331_j635655160271_1_alg».proof.Proof.Bridge
import Idealize.ShloMosaic.Adequacy
import Idealize.ShloMosaic.Init

noncomputable section

namespace Cert.Proof

open Idealize.ShloMosaic Idealize.ShloMosaic.TcCoe Idealize.SL.Sem Cert.Gcn

theorem frame_k : Cert.frame_Kernel := fun m ρ _ => Cert.Kernel.Gen.frame m ρ

theorem frame_ki : Cert.frame_KernelIdeal := fun m ρ _ => Cert.KernelIdeal.Gen.frame m ρ

/-- The reference's run with the two results dropped. -/
theorem frame_ri : Cert.frame_ReferenceIdeal := fun m ρ _ =>
  (θ_run Cert.ReferenceIdeal.defs _ _).mono (fun _ h c => (h c).2.2) (Cert.ReferenceIdeal.HandValue.run m ρ)

/-- The idealization rewrote nothing. -/
theorem preserves : Cert.preserves_Kernel_KernelIdeal := trivial

/-- The kernel program ends at `headK (embedK …)` and `embedK …` of its arguments, the reference at `headHost (embedOf …)`
    and `embedOf …` of arguments that agree: one function (`embed_bridge`, `head_bridge`). -/
theorem algebraic : Cert.algebraic_KernelIdeal_ReferenceIdeal := by
  intro m ρ m' ρ' _ hagree
  refine ⟨fun c => headK (embedK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => embedK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.KernelIdeal.Value.run m ρ, ?_⟩
  refine (θ_run Cert.ReferenceIdeal.defs _ _).mono (fun _ h c => ⟨(h c).1.trans ?_, (h c).2.1.trans ?_, (h c).2.2⟩)
    (Cert.ReferenceIdeal.HandValue.run m' ρ')
  · obtain ⟨a0, a1, a2, a3, a4, a5, a6, a7, a8, a9, a10⟩ := hagree c
    rw [a0, a1, a2, a3, a4, a5, a6, a7, a8, a9, a10]
    exact (head_bridge _ _ _).trans (congrArg (fun e => headK e _ _) (embed_bridge _ _ _ _ _ _ _ _ _))
  · obtain ⟨a0, a1, a2, a3, a4, a5, a6, a7, a8, -, -⟩ := hagree c
    rw [a0, a1, a2, a3, a4, a5, a6, a7, a8]
    exact embed_bridge _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
